-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S1x1 : Shape := ⟨2, ![1, 1]⟩
abbrev S_ : Shape := ⟨0, ![]⟩
abbrev S128x128 : Shape := ⟨2, ![128, 128]⟩
abbrev S128 : Shape := ⟨1, ![128]⟩
abbrev S128x1 : Shape := ⟨2, ![128, 1]⟩
abbrev S1x128x1 : Shape := ⟨3, ![1, 128, 1]⟩
abbrev S1 : Shape := ⟨1, ![1]⟩
abbrev S1x1x1 : Shape := ⟨3, ![1, 1, 1]⟩
abbrev S8192 : Shape := ⟨1, ![8192]⟩
abbrev S8192x1 : Shape := ⟨2, ![8192, 1]⟩
abbrev S1x8192 : Shape := ⟨2, ![1, 8192]⟩
abbrev S128x8192 : Shape := ⟨2, ![128, 8192]⟩

abbrev nBuf : Space → Nat
  | .hbm => 3
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S1x1, .f32⟩
  | .hbm, ⟨2, _⟩ => ⟨S_, .f32⟩
  | .local _ .vmem, ⟨0, _⟩ => ⟨S128x128, .f32⟩
  | .local _ .vmem, ⟨1, _⟩ => ⟨S128x128, .f32⟩
  | .local _ .vmem, ⟨2, _⟩ => ⟨S8192x128, .f32⟩
  | .local _ .vmem, ⟨3, _⟩ => ⟨S1x1, .f32⟩
  | .local _ .vmem, ⟨4, _⟩ => ⟨S1x1, .f32⟩
  | .local _ .vmem, ⟨5, _⟩ => ⟨S1x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v87 : BitVec 1 := Scalar.cmpi .eq arg0 c63_i32
  let v88 : BitVec 32 := Scalar.extui v87
  let c0_i32_31 : BitVec 32 := 0#32
  let v89 : BitVec 1 := Scalar.cmpi .ne v88 c0_i32_31
  v89

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S1x1_S_ : S1x1.ShapeCasts S_
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S128x128_S128x128_0_0 : ∀ a, (![0, 0] : Fin 2 → Nat) a + S128x128.size a ≤ S128x128.size a
  h_S128x128 : 0 < S128x128.numel
  inb_S8192x128_S8192x128_0_0 : ∀ a, (![0, 0] : Fin 2 → Nat) a + S8192x128.size a ≤ S8192x128.size a
  h_S8192x128 : 0 < S8192x128.numel
  reduces_S128x128_S128 : S128x128.Reduces [1] S128
  shapeCasts_S128_S128x1 : S128.ShapeCasts S128x1
  shapeCasts_S128x1_S1x128x1 : S128x1.ShapeCasts S1x128x1
  reduces_S1x128x1_S1 : S1x128x1.Reduces [1, 2] S1
  shapeCasts_S1_S1x1x1 : S1.ShapeCasts S1x1x1
  inpos_S1x1x1_p0_0_0 : ∀ a, (![0, 0, 0] : Fin 3 → Nat) a < S1x1x1.size a
  reduces_S8192x128_S8192 : S8192x128.Reduces [1] S8192
  shapeCasts_S8192_S8192x1 : S8192.ShapeCasts S8192x1
  transposes_S8192x1_p1_0_S1x8192 : S8192x1.Transposes [1, 0] S1x8192
  transposes_S8192x128_p1_0_S128x8192 : S8192x128.Transposes [1, 0] S128x8192
  broadcasts_S128x1_S128x8192 : S128x1.Broadcasts S128x8192
  broadcasts_S1x8192_S128x8192 : S1x8192.Broadcasts S128x8192
  iota_S128x1_d0_w32 : S128x1.Iotas .tc 32 [0]
  iota_S1x8192_d1_w32 : S1x8192.Iotas .tc 32 [1]
  reduces_S128x8192_S128 : S128x8192.Reduces [1] S128
  dot_S128x128_S128x8192_S128x8192_1_0_0_1_n_n_wf : DotDims.WF S128x128 S128x8192 S128x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S8192x128.size a
  hwx0_0 : ∀ i : grid0.Coords, EltTy.bits .f32 = 32 ∨ (Rect.block (s := S8192x128) S128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S128x128_S128x8192_S128x8192_1_0_0_1_n_n : DotDims S128x128 S128x8192 S128x8192 where
  lhsContracting := [1]
  rhsContracting := [0]
  lhsNonContracting := [0]
  rhsNonContracting := [1]
  lhsBatch := []
  rhsBatch := []
  wf := dot_S128x128_S128x8192_S128x8192_1_0_0_1_n_n_wf

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 90
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S_, .f32⟩
  | .hbm, ⟨2, _⟩ => ⟨S8192x128, .f32⟩
  | .hbm, ⟨3, _⟩ => ⟨S8192x128, .f32⟩
  | .hbm, ⟨4, _⟩ => ⟨S8192x128, .f32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S8192, .f32⟩
  | .hbm, ⟨9, _⟩ => ⟨S8192, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8192x128, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S1x8192, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S128x8192, .f32⟩
  | .hbm, ⟨39, _⟩ => ⟨S8192x8192, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S_, .i1⟩
  | .hbm, ⟨45, _⟩ => ⟨S8192x8192, .i1⟩
  | .hbm, ⟨46, _⟩ => ⟨S8192x8192, .i32⟩
  | .hbm, ⟨47, _⟩ => ⟨S_, .i32⟩
  | .hbm, ⟨48, _⟩ => ⟨S8192x8192, .i32⟩
  | .hbm, ⟨49, _⟩ => ⟨S8192x8192, .i32⟩
  | .hbm, ⟨50, _⟩ => ⟨S8192x8192, .i32⟩
  | .hbm, ⟨51, _⟩ => ⟨S8192x8192, .i1⟩
  | .hbm, ⟨52, _⟩ => ⟨S_, .i1⟩
  | .hbm, ⟨53, _⟩ => ⟨S8192x8192, .i1⟩
  | .hbm, ⟨54, _⟩ => ⟨S8192x8192, .i1⟩
  | .hbm, ⟨55, _⟩ => ⟨S_, .f32⟩
  | .hbm, ⟨56, _⟩ => ⟨S8192x8192, .f32⟩
  | .hbm, ⟨57, _⟩ => ⟨S8192x8192, .f32⟩
  | .hbm, ⟨58, _⟩ => ⟨S_, .f32⟩
  | .hbm, ⟨59, _⟩ => ⟨S_, .f32⟩
  | .hbm, ⟨60, _⟩ => ⟨S8192x8192, .f32⟩
  | .hbm, ⟨61, _⟩ => ⟨S8192x8192, .f32⟩
  | .hbm, ⟨62, _⟩ => ⟨S8192x8192, .f32⟩
  | .hbm, ⟨63, _⟩ => ⟨S8192x8192, .f32⟩
  | .hbm, ⟨64, _⟩ => ⟨S8192x8192, .f32⟩
  | .hbm, ⟨65, _⟩ => ⟨S_, .f32⟩
  | .hbm, ⟨66, _⟩ => ⟨S8192x8192, .f32⟩
  | .hbm, ⟨67, _⟩ => ⟨S8192x8192, .f32⟩
  | .hbm, ⟨68, _⟩ => ⟨S8192x8192, .f32⟩
  | .hbm, ⟨69, _⟩ => ⟨S_, .f32⟩
  | .hbm, ⟨70, _⟩ => ⟨S8192x8192, .f32⟩
  | .hbm, ⟨71, _⟩ => ⟨S8192x8192, .f32⟩
  | .hbm, ⟨72, _⟩ => ⟨S8192x8192, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S8192x8192, .f32⟩
  | .hbm, ⟨77, _⟩ => ⟨S8192x8192, .f32⟩
  | .hbm, ⟨78, _⟩ => ⟨S_, .f32⟩
  | .hbm, ⟨79, _⟩ => ⟨S8192x8192, .f32⟩
  | .hbm, ⟨80, _⟩ => ⟨S8192x8192, .f32⟩
  | .hbm, ⟨81, _⟩ => ⟨S_, .f32⟩
  | .hbm, ⟨82, _⟩ => ⟨S_, .f32⟩
  | .hbm, ⟨83, _⟩ => ⟨S8192x8192, .f32⟩
  | .hbm, ⟨84, _⟩ => ⟨S8192x8192, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_3 : Ref sig .tc := ⟨.hbm, 18, rfl⟩
abbrev main_cst_4 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v13 : Ref sig .tc := ⟨.hbm, 25, rfl⟩
abbrev main_cst_5 : Ref sig .tc := ⟨.hbm, 26, rfl⟩
abbrev main_v14 : Ref sig .tc := ⟨.hbm, 27, rfl⟩
abbrev main_cst_6 : Ref sig .tc := ⟨.hbm, 28, rfl⟩
abbrev main_v15 : Ref sig .tc := ⟨.hbm, 29, rfl⟩
abbrev main_v16 : Ref sig .tc := ⟨.hbm, 30, rfl⟩
abbrev main_cst_7 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_8 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c : Ref sig .tc := ⟨.hbm, 44, rfl⟩
abbrev main_v28 : Ref sig .tc := ⟨.hbm, 45, rfl⟩
abbrev main_call1_v0 : Ref sig .tc := ⟨.hbm, 46, rfl⟩
abbrev main_call1_c : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_c_0 : Ref sig .tc := ⟨.hbm, 52, rfl⟩
abbrev main_call1_v5 : Ref sig .tc := ⟨.hbm, 53, rfl⟩
abbrev main_v29 : Ref sig .tc := ⟨.hbm, 54, rfl⟩
abbrev main_cst_9 : Ref sig .tc := ⟨.hbm, 55, rfl⟩
abbrev main_v30 : Ref sig .tc := ⟨.hbm, 56, rfl⟩
abbrev main_v31 : Ref sig .tc := ⟨.hbm, 57, rfl⟩
abbrev main_cst_10 : Ref sig .tc := ⟨.hbm, 58, rfl⟩
abbrev main_call2_v0 : Ref sig .tc := ⟨.hbm, 59, rfl⟩
abbrev main_call2_v1 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_11 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_12 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_13 : Ref sig .tc := ⟨.hbm, 73, rfl⟩
abbrev main_cst_14 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_v42 : Ref sig .tc := ⟨.hbm, 80, rfl⟩
abbrev main_cst_15 : Ref sig .tc := ⟨.hbm, 81, rfl⟩
abbrev main_call4_v0 : Ref sig .tc := ⟨.hbm, 82, rfl⟩
abbrev main_call4_v1 : Ref sig .tc := ⟨.hbm, 83, rfl⟩
abbrev main_v43 : Ref sig .tc := ⟨.hbm, 84, rfl⟩
abbrev main_cst_16 : Ref sig .tc := ⟨.hbm, 85, rfl⟩
abbrev main_v44 : Ref sig .tc := ⟨.hbm, 86, rfl⟩
abbrev main_cst_17 : Ref sig .tc := ⟨.hbm, 87, rfl⟩
abbrev main_v45 : Ref sig .tc := ⟨.hbm, 88, rfl⟩
abbrev main_v46 : Ref sig .tc := ⟨.hbm, 89, rfl⟩

abbrev nD : Nat := 1
abbrev τ : Topo := Topo.v7x

variable {F : FTy → Type} [FloatOps F]

class Facts₀ : Prop where
  bcast_S_S8192x128 : S_.BroadcastsInDim S8192x128 (![] : Fin 0 → Fin S8192x128.rank)
  reducesTo_S8192x128_S8192_d1 : S8192x128.ReducesTo [1] S8192
  h_S_ : 0 < S_.numel
  bcast_S_S8192 : S_.BroadcastsInDim S8192 (![] : Fin 0 → Fin S8192.rank)
  reducesTo_S8192_S_d0 : S8192.ReducesTo [0] S_
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S_d0_1 : S8192x8192.ReducesTo [0, 1] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.BitsBodyBase.lean ====
/-
  What the three cases of the word-level kernel body's run share: the two branch conditions over the grid coordinate, and one whole-buffer store read back is the stored value.
  (The word-level program has the same text as the idealized one; this module is the same argument over it.)
-/
import proofs.«127044_j82729660056292_2_alg».proof.Proof.Gen.Kernel.Launch
import proofs.«127044_j82729660056292_2_alg».proof.Proof.Gen.Kernel.Skeleton
import proofs.«127044_j82729660056292_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

/-- The first point of the grid: the body's first branch is taken exactly there. -/
abbrev condFirst (i : grid0.Coords) : Prop := (Scalar.cmpi .ne (Scalar.extui (Scalar.cmpi .eq (BitVec.ofNat 32 (i 0).val) 0#32)) 0#32) = 1#1
/-- The last point of the grid: the body's second branch is taken exactly there. -/
abbrev condLast (i : grid0.Coords) : Prop := k0_cond2 i = 1#1

/-- The zero offsets of a rank-2 rectangle, however spelt. -/
theorem hz2 : (![0, 0] : Fin 2 → Nat) = fun _ => 0 := by
  funext a; match a with | ⟨0, _⟩ => rfl | ⟨1, _⟩ => rfl

/-- One store of w through the whole-shape rectangle at zero offsets, read back through the view, is w, whatever the
    buffer held. -/
theorem read_store_whole {Val : EltTy → Type} [∀ e, Nonempty (Val e)] {sig' : RefSig} {κ : Kind} {sp : Space} {S : Shape} {e : EltTy}
    (v : View sig' κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h inb w]

end Cert.Kernel.Hand

end
-- ==== Proof.BitsAcc.lean ====
/-
  The word-level kernel's two running sums as pure recursions over the grid points, through the body's own arithmetic.

  At point t the body reads rows [128·t, 128·t + 128) of x (its row block) and the whole of x, and rewrites two
  one-cell accumulators: the first gains the block's 128 row terms, the second the block's 128 × 8192 pair terms.
  Point 0 starts both from zero. After the last point, 63, the result is the first over 8192 plus the second over
  the number of pairs.
-/
import proofs.«127044_j82729660056292_2_alg».proof.Proof.Gen.Kernel.Skeleton
import Idealize.ShloMosaic.Lib.ValueIdx

noncomputable section

namespace Cert.Kernel.Acc

open Idealize.ShloMosaic Idealize.ShloMosaic.ValueIdx Cert.Kernel Cert.Kernel.Gen

variable {F : FTy → Type} [FloatOps F]

/-- Rows [128·t, 128·t + 128) of x as a 128 × 128 block (t < 64; the row is taken modulo 8192 only so that the
    definition is total). -/
def rowBlock (x : Vec F S8192x128 .f32) (t : Nat) : Vec F S128x128 .f32 :=
  fun y => x (ix2 (⟨(t * 128 + (y 0).val) % 8192, Nat.mod_lt _ (by decide)⟩ : Fin 8192) (⟨(y 1).val, (y 1).isLt⟩ : Fin 128))

/-- The first accumulator after point t. -/
def acc0 (x : Vec F S8192x128 .f32) : Nat → Vec F S1x1 .f32
  | 0 => k0_pay5 (rowBlock x 0) (k0_pay3 (F := F))
  | t + 1 => k0_pay5 (rowBlock x (t + 1)) (acc0 x t)

/-- The second accumulator after point t. -/
def acc1 (x : Vec F S8192x128 .f32) : Nat → Vec F S1x1 .f32
  | 0 => k0_pay1 (k0_pay8 (BitVec.ofNat 32 0) (rowBlock x 0) x (k0_pay6 (rowBlock x 0)) (k0_pay7 x) (k0_pay4 (F := F)))
  | t + 1 => k0_pay1 (k0_pay8 (BitVec.ofNat 32 (t + 1)) (rowBlock x (t + 1)) x (k0_pay6 (rowBlock x (t + 1))) (k0_pay7 x) (acc1 x t))

/-- What the last point stores as the result. -/
def out (x : Vec F S8192x128 .f32) : Vec F S1x1 .f32 := k0_pay2 (acc0 x 63) (acc1 x 63)

end Cert.Kernel.Acc

end
-- ==== Proof.BitsFrameData.lean ====
/-
  The proof data of the word-level kernel's pipeline: the blocks its two input windows read, where the branch conditions hold over the grid, the invariant carrying the two accumulators, and what each staging buffer holds when the body runs.
  (The word-level program has the same text as the idealized one; this module is the same argument over it.)
-/
import proofs.«127044_j82729660056292_2_alg».proof.Proof.BitsBodyBase
import proofs.«127044_j82729660056292_2_alg».proof.Proof.BitsAcc

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- The core's buffer contents when the region is entered: no host operation comes before it. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem V_main_arg0 (c : Dev nD) : V m c main_arg0 = m ((c : Thread nD τ).loc main_arg0) := rfl

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first grid point. -/
abbrev t0 : Fin cfg0.N := ⟨0, by decide⟩

/-- The argument array as an 8192 × 128 array of elements: the second window's one block. -/
def xArr (c : Dev nD) : Vec F S8192x128 .f32 := iblk m c 1 t0

/-- The first window's block index is (t, 0): rows [128·t, 128·t + 128). -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
/-- The second window's block index is (0, 0) at every point: the whole array. -/
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
/-- The grid has one axis: the coordinate of point t is t. -/
theorem coords0 : ∀ t : Fin cfg0.N, ((grid0.coords t) 0).val = t.val :=
  (by decide +kernel : ∀ t : Fin grid0.N, ((grid0.coords t) 0).val = t.val)

/-- The second window's block is the whole array at every point. -/
theorem iblk1_eq (c : Dev nD) (t : Fin cfg0.N) : iblk m c 1 t = xArr m c := by
  funext j
  show V m c main_arg0 (((cfg0.win 1).blk t).view.emb j) = V m c main_arg0 (((cfg0.win 1).blk t0).view.emb j)
  have h : ((cfg0.win 1).blk t).view.emb j = ((cfg0.win 1).blk t0).view.emb j := by
    obtain ⟨e0, e1⟩ := idx1 t; obtain ⟨z0, z1⟩ := idx1 t0
    funext a; apply Fin.ext
    match a with
    | ⟨0, _⟩ => show win0_1.index t (0 : Fin 2) * 8192 + 1 * (j 0).val = win0_1.index t0 (0 : Fin 2) * 8192 + 1 * (j 0).val; omega
    | ⟨1, _⟩ => show win0_1.index t (1 : Fin 2) * 128 + 1 * (j 1).val = win0_1.index t0 (1 : Fin 2) * 128 + 1 * (j 1).val; omega
  rw [h]

/-- The first window's block at point t is rows [128·t, 128·t + 128) of the array. -/
theorem iblk0_eq (c : Dev nD) (t : Fin cfg0.N) : iblk m c 0 t = Acc.rowBlock (xArr m c) t.val := by
  funext j
  have ht : t.val < 64 := lt_of_lt_of_eq t.isLt N_0
  have hj0 : (j 0).val < 128 := (j 0).isLt
  have hj1 : (j 1).val < 128 := (j 1).isLt
  show V m c main_arg0 (((cfg0.win 0).blk t).view.emb j)
    = V m c main_arg0 (((cfg0.win 1).blk t0).view.emb (ix2 (⟨(t.val * 128 + (j 0).val) % 8192, Nat.mod_lt _ (by decide)⟩ : Fin 8192) (⟨(j 1).val, (j 1).isLt⟩ : Fin 128)))
  have h : ((cfg0.win 0).blk t).view.emb j
      = ((cfg0.win 1).blk t0).view.emb (ix2 (⟨(t.val * 128 + (j 0).val) % 8192, Nat.mod_lt _ (by decide)⟩ : Fin 8192) (⟨(j 1).val, (j 1).isLt⟩ : Fin 128)) := by
    obtain ⟨e0, e1⟩ := idx0 t; obtain ⟨z0, z1⟩ := idx1 t0
    funext a; apply Fin.ext
    match a with
    | ⟨0, _⟩ => show win0_0.index t (0 : Fin 2) * 128 + 1 * (j 0).val = win0_1.index t0 (0 : Fin 2) * 8192 + 1 * ((t.val * 128 + (j 0).val) % 8192); omega
    | ⟨1, _⟩ => show win0_0.index t (1 : Fin 2) * 128 + 1 * (j 1).val = win0_1.index t0 (1 : Fin 2) * 128 + 1 * (j 1).val; omega
  rw [h]

/-! ## @main around the region -/

theorem hostOps1_fresh : (hostOps1 : List (HloOp τ sig (Elt F))).Forall fun op => op.fresh = ∅ := by
  simp only [List.Forall]; repeat' constructor

/-- @main is the region continued by the one host line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-! ## The branch conditions and the idle points, decided over the grid -/

theorem hcondFirst : ∀ t : Fin cfg0.N, condFirst (grid0.coords t) ↔ t.val = 0 :=
  (by decide +kernel : ∀ t : Fin grid0.N, condFirst (grid0.coords t) ↔ t.val = 0)
theorem hcondLast : ∀ t : Fin cfg0.N, condLast (grid0.coords t) ↔ t.val = 63 :=
  (by decide +kernel : ∀ t : Fin grid0.N, condLast (grid0.coords t) ↔ t.val = 63)
theorem liveAt0 : ∀ t : Fin cfg0.N, cfg0.idle 0 (grid0.coords t) = false := by decide +kernel
theorem liveAt1 : ∀ t : Fin cfg0.N, cfg0.idle 1 (grid0.coords t) = false := by decide +kernel
/-- Away from the last point the result window is idle and not written back; -/
theorem idleAt2 : ∀ t : Fin cfg0.N, ¬condLast (grid0.coords t) → cfg0.idle 2 (grid0.coords t) = true := by decide +kernel
theorem noFlush2 : ∀ t : Fin cfg0.N, ¬condLast (grid0.coords t) → (cfg0.win 2).flush t = false := by decide +kernel
/-- at the last point it is live. -/
theorem liveAt2 : ∀ t : Fin cfg0.N, condLast (grid0.coords t) → cfg0.idle 2 (grid0.coords t) = false := by decide +kernel

/-! ## The scratch accumulators and the invariant -/

abbrev scM0 : Memref sig .tc .vmem S1x1 .f32 := Memref.whole cc0_scratch0
abbrev scM1 : Memref sig .tc .vmem S1x1 .f32 := Memref.whole cc0_scratch1

/-- What the launch hands the region besides the windows: the two accumulators, at anything. -/
theorem Phi0_eq (c : Dev nD) :
    (Pipeline.scopedRest spec0 c : sProp 𝕄)
      = iprop((∃ d, owns (c : Thread nD τ) scM0 fullShare d) ∗ (∃ d, owns (c : Thread nD τ) scM1 fullShare d)) := by
  rw [scopedRest0_eq]; simp only [scM0, scM1, owns_whole]; try rfl

/-- The invariant before position n: before the first point the accumulators hold anything; after point n they hold
    the running sums over the row blocks 0 … n. -/
def PhiS (c : Dev nD) : ℕ → sProp 𝕄
  | 0 => Pipeline.scopedRest spec0 c
  | n + 1 => iprop(owns (c : Thread nD τ) scM0 fullShare (Acc.acc0 (xArr m c) n) ∗ owns (c : Thread nD τ) scM1 fullShare (Acc.acc1 (xArr m c) n))

/-! ## The proof data -/

/-- The pipeline's proof data on core c: the arrays as the region finds them; each input's buffer left at its block;
    the result's buffer, where the body stores it (the last point), at the final value; the invariant above; the array
    both input windows read is shared between them, half each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => Acc.out (xArr m c)
  Φ t := PhiS m c t.val
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = Acc.out (xArr m c) := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

end Cert.Kernel.Hand

end
-- ==== Proof.BitsRun.lean ====
/-
  The launch of the word-level kernel's pipeline and the run of its @main: the argument array's share split between the two input windows, the host reshape after the region, and the run's post (argument unchanged, result buffer at the host line's value).
  (The word-level program has the same text as the idealized one; this module is the same argument over it.)
-/
import proofs.«127044_j82729660056292_2_alg».proof.Proof.BitsFrameData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen Idealize.ShloMosaic.ValueIdx

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The array both input windows read, dealt between them -/

/-- At entry the two arrays behind the three windows, each whole, make the windows' arrays: the argument array's full
    share splits in two halves, one per input window; the result array goes whole to the output window. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_W0,
    Idealize.SL.BI.bigSep_eq_bigSepL_of_eq [main_arg0, main_call0_v0] (by decide) (by decide)]
  show iprop((((c.tc : Thread nD τ).loc main_arg0) ↦{fullShare} V m c main_arg0) ∗ (((c.tc : Thread nD τ).loc main_call0_v0) ↦{fullShare} V m c main_call0_v0))
    ⊢ iprop((((c.tc : Thread nD τ).loc main_arg0) ↦[(spec0 0).arr.view.set]{fullShare.left} V m c main_arg0)
        ∗ (((c.tc : Thread nD τ).loc main_arg0) ↦[(spec0 1).arr.view.set]{fullShare.right} V m c main_arg0)
        ∗ (((c.tc : Thread nD τ).loc main_call0_v0) ↦[(spec0 2).arr.view.set]{fullShare} V m c main_call0_v0))
  rw [(arr_whole0 0).set_eq_univ, (arr_whole0 2).set_eq_univ]
  iintro ⟨HA, HO⟩
  ihave HA' := (pointsTo_share (PosShare.mem_left_op_right fullShare)).1 $$ HA
  icases HA' with ⟨HL, HR⟩
  isplitl [HL]; · iexact HL
  isplitl [HR]; · iexact HR
  iexact HO

/-! ## The host line after the region -/

/-- The result array is the output window's alone: the exit contents at it are the output window's array. -/
theorem withArrays_out (c : Dev nD) (V₁ : Valuation τ sig (Elt F))
    (A : (w : Fin 3) → Buf (Elt F) ((spec0 w).arr.view.loc (c.tc : Thread nD τ))) :
    Pipeline.withArrays spec0 c V₁ A (Proc.devRef .tc main_call0_v0) = A 2 := by
  unfold Pipeline.withArrays
  have h : ∃ w', Proc.devRef .tc (Pipeline.arrRef spec0 w') = Proc.devRef (τ := τ) .tc main_call0_v0 := ⟨2, rfl⟩
  rw [dif_pos h]
  suffices ∀ (w' : Fin 3) (e : Proc.devRef .tc (Pipeline.arrRef spec0 w') = Proc.devRef (τ := τ) .tc main_call0_v0),
      cast (congrArg (fun b' : DevRef τ sig => b'.ty.Contents (Elt F)) e) (A w') = A 2 from this _ h.choose_spec
  intro w' e
  obtain rfl : w' = 2 :=
    (by decide : ∀ w' : Fin 3, Pipeline.arrRef spec0 w' = main_call0_v0 → w' = 2) w' (Proc.devRef_injective _ e)
  rfl

/-- The core's buffer contents when the region is left: the windows' arrays after every write-back, the rest as at entry. -/
def Wx (c : Dev nD) : Valuation τ sig (Elt F) :=
  Pipeline.withArrays spec0 c (V0 m c) fun w => (dats m 0 c).arrAt w cfg0.N

/-- And after the host line that follows the region. -/
def Vf (c : Dev nD) : Valuation τ sig (Elt F) := StableHlo.after hostOps1 (Wx m c)

theorem Wx_out (c : Dev nD) : Wx m c (Proc.devRef .tc main_call0_v0) = (dats m 0 c).arrAt 2 cfg0.N :=
  withArrays_out c _ _

theorem Wx_res (c : Dev nD) : Wx m c (Proc.devRef .tc main_v0) = V m c main_v0 :=
  Pipeline.withArrays_of_ne spec0 c (V0 m c) _ main_v0 (by decide)

/-- The host line writes the result buffer only: the result array keeps its exit contents. -/
theorem Vf_out (c : Dev nD) : Vf m c (Proc.devRef .tc main_call0_v0) = (dats m 0 c).arrAt 2 cfg0.N := by
  unfold Vf
  rw [StableHlo.after_of_forall_not_mem _ _ fun op hop => ?_, Wx_out]
  simp only [hostOps1, List.mem_cons, List.mem_nil_iff, or_false] at hop
  subst hop
  simp only [StableHlo.reshape_writes, Finset.mem_singleton]
  exact StableHlo.devRef_ne_of_ne (by decide)

/-- The two buffers the host line touches. -/
abbrev Sx : Finset (DevRef τ sig) := {Proc.devRef .tc main_call0_v0, Proc.devRef .tc main_v0}

theorem held_Sx (c : Dev nD) (W : Valuation τ sig (Elt F)) :
    (StableHlo.held (c.tc : Thread nD τ) Sx W : sProp 𝕄)
      = iprop((((c.tc : Thread nD τ).loc main_call0_v0) ↦{fullShare} W (Proc.devRef .tc main_call0_v0))
          ∗ (((c.tc : Thread nD τ).loc main_v0) ↦{fullShare} W (Proc.devRef .tc main_v0))) := by
  unfold StableHlo.held Sx
  rw [bigSep_insert (Finset.mem_singleton.not.mpr (StableHlo.devRef_ne_of_ne (by decide))), bigSep_singleton]
  rfl

theorem hostOps1_Sx : ∀ ops ∈ ([hostOps1] : List (List (HloOp τ sig (Elt F)))), ∀ op ∈ ops, op.bufs ⊆ Sx := by
  intro ops hops op hop
  simp only [List.mem_cons, List.mem_nil_iff, or_false] at hops
  subst hops
  simp only [hostOps1, List.mem_cons, List.mem_nil_iff, or_false] at hop
  subst hop
  exact Finset.Subset.refl _

theorem hostOps1_fresh' : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

set_option backward.isDefEq.respectTransparency.types false in
/-- From the region's exit the host line runs holding the result array (whole, the output window's) and the result
    buffer, and hands back the windows' arrays as they were and the result buffer at the line's value. -/
theorem htail (c : Dev nD) (Q' : PUnit → sProp 𝕄) :
    iprop((iprop((dats m 0 c).arrays ((dats m 0 c).arrAt · cfg0.N) ∗ Pipeline.unscopedRest spec0 c (fun b => Vf m c (Proc.devRef .tc b))) -∗ Q' ⟨⟩)
        ∗ boundary (c.tc : Thread nD τ) ∗ (dats m 0 c).arrays ((dats m 0 c).arrAt · cfg0.N) ∗ Pipeline.unscopedRest spec0 c (V m c))
      ⊢ wp frame (wpE (Pipeline.defs (pcfgs (F := F)) defs₀) (Variants.lift Variants.none) (c.tc : Thread nD τ) none) Set.univ
          (Pipeline.chain [StableHlo.seq hostOps1]) Q' := by
  rw [unscopedRest0_eq, unscopedRest0_eq]
  unfold Dat.arrays
  rw [bigSep_W0]
  rw [show (dats m 0 c).share 2 = fullShare from rfl, (arr_whole0 2).set_eq_univ]
  have hfin : (StableHlo.held (c.tc : Thread nD τ) Sx (StableHlo.after ([hostOps1] : List (List (HloOp τ sig (Elt F)))).flatten (Wx m c)) : sProp 𝕄)
      = iprop((((c.tc : Thread nD τ).loc main_call0_v0) ↦{fullShare} (dats m 0 c).arrAt 2 cfg0.N)
          ∗ (((c.tc : Thread nD τ).loc main_v0) ↦{fullShare} Vf m c (Proc.devRef .tc main_v0))) := by
    rw [show StableHlo.after ([hostOps1] : List (List (HloOp τ sig (Elt F)))).flatten (Wx m c) = Vf m c from by
      unfold Vf; simp only [List.flatten_cons, List.flatten_nil, List.append_nil], held_Sx, Vf_out]
  iintro ⟨Hk, Hb, ⟨HA0, HA1, HA2⟩, HV⟩
  iapply (Pipeline.wp_seqs_then (pcfgs (F := F)) defs₀ Variants.none c Sx [] [hostOps1] hostOps1_Sx hostOps1_fresh' (Wx m c)) $$ [Hb HA2 HV]
  · rw [held_Sx, Wx_out, Wx_res]
    isplitl [Hb]; · iexact Hb
    isplitl [HA2]; · iexact HA2
    iexact HV
  iintro ⟨Hb, Hh⟩
  rw [Pipeline.chain_nil, wp_pure]
  imodintro
  iapply Hk
  ihave Hh' := (Entails.of_eq hfin) $$ Hh
  icases Hh' with ⟨HA2, HV⟩
  isplitl [HA0 HA1 HA2]
  · isplitl [HA0]; · iexact HA0
    isplitl [HA1]; · iexact HA1
    iexact HA2
  iexact HV

/-! ## The launch -/

/-- After the last point the invariant gives the two accumulators back, at whatever they hold. -/
theorem hout (c : Dev nD) : (dats m 0 c).Φ (Fin.last cfg0.N) ⊢ iprop((BI.emp : sProp 𝕄) ∗ Pipeline.scopedRest spec0 c) := by
  rw [show (dats m 0 c).Φ (Fin.last cfg0.N) = iprop(owns (c : Thread nD τ) scM0 fullShare (Acc.acc0 (xArr m c) 63) ∗ owns (c : Thread nD τ) scM1 fullShare (Acc.acc1 (xArr m c) 63)) from rfl, Phi0_eq]
  iintro ⟨H0, H1⟩
  isplitr; · iempintro
  isplitl [H0]; · iexists _; iexact H0
  iexists _; iexact H1

set_option backward.isDefEq.respectTransparency.types false in
/-- THE RUN, given the body's obligation: every weakly fair execution of @main terminates, nothing faulting, with the
    argument array unchanged and the result buffer at the host line's value of the region's exit contents. -/
theorem run_main_of (hbody : ∀ c, BodyObligation (dats (F := F) m 0 c) (defs₀ (F := F)) Variants.none () Set.univ) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_v0) = Vf m c (Proc.devRef .tc main_v0)) :=
  Pipeline.θ_run_region_noSem_pf_tail (fun q => (cfgs q).toPCfg (Val := Elt F)) (fun q => (cfgs q).toPCfg_adm) (dats m) () cellOf_inj (0 : Fin 1)
    winFacts₀0 (Pipeline.PreFacts.none _) emb₁ defs₀ Variants.none m ρ main (fun _ => Pipeline.chain [StableHlo.seq hostOps1])
    (hbody := fun c => (hbody c).loose)
    (hne := block_pos0) (harr := arr_whole0) (hstage := stage_whole0) (howed := fun _ _ => rfl)
    (u₀ := initOf (Pipeline.cells cfgs cellOf_inj) (Pipeline.launchToks cfgs cellOf_inj))
    (hu₀ := Idealize.SL.BI.Entails.refl _)
    (V := V m) (hmain := hmain m Variants.none)
    (hsplit := hsplit m) (hpf := fun _ k => k.elim0)
    (X := fun _ => BI.emp) (Y := fun _ => BI.emp)
    (Z := fun c => Pipeline.unscopedRest spec0 c (V m c))
    (Z' := fun c => Pipeline.unscopedRest spec0 c (fun b => Vf m c (Proc.devRef .tc b)))
    (hX := fun c => by
      rw [Pipeline.unscopedRestP_none]
      iintro H
      isplitr; · iempintro
      iexact H)
    (hin := fun c => by
      rw [show (dats m 0 c).Φ 0 = Pipeline.scopedRest spec0 c from rfl]
      iintro ⟨-, -, HR⟩
      iexact HR)
    (hout := fun c => hout m c)
    (htail := fun c Q' => htail m c Q')
    (QY := fun c s => ∀ b ∈ Pipeline.restRefs sig spec0, s.mem ((c.tc : Thread nD τ).loc b) = Vf m c (Proc.devRef .tc b))
    (hY := fun c s' => by
      iintro ⟨-, HU, HSI⟩
      unfold Pipeline.unscopedRest
      imodintro
      iapply (pointsTo_read_all (Pipeline.restRefs sig spec0) (fun b => (c.tc : Thread nD τ).loc b) (fun b => Vf m c (Proc.devRef .tc b)) s')
      isplitl [HU] <;> iassumption)
    (hQ := fun s h c => ⟨((h c).1 0).trans (((dats m 0 c).arrAt_in 0 rfl _).trans ((A_eq m c 0).trans (V_main_arg0 m c))),
      (h c).2.2 main_v0 (by decide)⟩)

end Cert.Kernel.Hand

end
-- ==== Proof.BitsBodyFirst.lean ====
/-
  The word-level kernel body at the first grid point: the accumulators zeroed, then updated from the point's row block and the whole array.
  (The word-level program has the same text as the idealized one; this module is the same argument over it.)
-/
import proofs.«127044_j82729660056292_2_alg».proof.Proof.BitsBodyBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-- The LAST store, of w through the whole-shape rectangle at zero offsets, read back through the view, is w,
    whatever was stored before it. -/
theorem read_store_last {Val : EltTy → Type} [∀ e, Nonempty (Val e)] {sig' : RefSig} {κ : Kind} {sp : Space} {S : Shape} {e : EltTy}
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb w L]

set_option maxHeartbeats 2000000 in
/-- The body at the first point: whatever the two accumulators held, they are zeroed, then updated from the point's
    row block and the whole array; the inputs and the result cell are left as they were. -/
theorem run_first (c : Dev nD) (i : grid0.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole)
    (hc0 : condFirst i) (hc1 : ¬condLast i)
    (x0 : Vec F S128x128 .f32) (xf : Vec F S8192x128 .f32) (o : Vec F S1x1 .f32) (E : Set ℕ) (K : PUnit → sProp 𝕄) :
    iprop(owns (c : Thread nD τ) arg1 fullShare x0 ∗ owns (c : Thread nD τ) arg2 fullShare xf ∗ owns (c : Thread nD τ) arg3 fullShare o
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare xf ∗ owns (c : Thread nD τ) arg3 fullShare o
            ∗ owns (c : Thread nD τ) arg4 fullShare (k0_pay5 x0 (k0_pay3 (F := F)))
            ∗ owns (c : Thread nD τ) arg5 fullShare (k0_pay1 (k0_pay8 (BitVec.ofNat 32 (i 0).val) x0 xf (k0_pay6 x0) (k0_pay7 xf) (k0_pay4 (F := F))))) -∗ K ⟨⟩))
      ⊢ wp frame (wpE (defs₀ (F := F)) Variants.none c none) E (cc0__ptm_loss_kernel i arg1 harg1 arg2 harg2 arg3 harg3 arg4 harg4 arg5 harg5) K := by
  simp only [cc0__ptm_loss_kernel_eq_skeleton]; unfold cc0__ptm_loss_kernel_skel
  simp only [k0_part1_eq_skeleton, k0_part2_eq_skeleton]
  unfold owns
  iintro ⟨⟨%f1, %hf1, H1⟩, ⟨%f2, %hf2, H2⟩, ⟨%f3, %hf3, H3⟩, ⟨%d4, %f4, -, H4⟩, ⟨%d5, %f5, -, H5⟩, Hk⟩
  obtain rfl := harg1.eq_unread hf1; obtain rfl := harg2.eq_unread hf2; obtain rfl := harg3.eq_unread hf3
  sl_exec (disch := first | exact hc0 | exact hc1)
  sl_step

  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    rw [read_store_last _ _ hz2]
    sl_unfold_run_names
    simp only [View.readAt_eq_ld, hf1, View.readCov_unit_zero (S := S1x1) _ hz2, View.ld_unit_zero (S := S128x128) hz2, View.ld_unit_zero (S := S8192x128) hz2, View.ld_unit_zero (S := S1x1) hz2]
  · iexists _; isplitr; swap; · iexact H5
    ipureintro
    rw [read_store_last _ _ hz2]
    sl_unfold_run_names
    simp only [View.readAt_eq_ld, hf1, hf2, View.readCov_unit_zero (S := S1x1) _ hz2, View.ld_unit_zero (S := S128x128) hz2, View.ld_unit_zero (S := S8192x128) hz2, View.ld_unit_zero (S := S1x1) hz2]

end Cert.Kernel.Hand

end
-- ==== Proof.BitsBodyMid.lean ====
/-
  The word-level kernel body at an interior grid point: both branches skipped, the two accumulators updated.
  (The word-level program has the same text as the idealized one; this module is the same argument over it.)
-/
import proofs.«127044_j82729660056292_2_alg».proof.Proof.BitsBodyBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 2000000 in
/-- The body at a point that is neither the first nor the last: with the row block x0, the whole array xf, the
    result cell o and the two accumulators a0, a1 in its five buffers, it runs to the end leaving the inputs and the
    result cell as they were and the accumulators at their updates, the block's row terms and pair terms added. -/
theorem run_mid (c : Dev nD) (i : grid0.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole)
    (hc0 : ¬condFirst i) (hc1 : ¬condLast i)
    (x0 : Vec F S128x128 .f32) (xf : Vec F S8192x128 .f32) (o a0 a1 : Vec F S1x1 .f32) (E : Set ℕ) (K : PUnit → sProp 𝕄) :
    iprop(owns (c : Thread nD τ) arg1 fullShare x0 ∗ owns (c : Thread nD τ) arg2 fullShare xf ∗ owns (c : Thread nD τ) arg3 fullShare o
        ∗ owns (c : Thread nD τ) arg4 fullShare a0 ∗ owns (c : Thread nD τ) arg5 fullShare a1
        ∗ (iprop(owns (c : Thread nD τ) arg1 fullShare x0 ∗ owns (c : Thread nD τ) arg2 fullShare xf ∗ owns (c : Thread nD τ) arg3 fullShare o
            ∗ owns (c : Thread nD τ) arg4 fullShare (k0_pay5 x0 a0)
            ∗ owns (c : Thread nD τ) arg5 fullShare (k0_pay1 (k0_pay8 (BitVec.ofNat 32 (i 0).val) x0 xf (k0_pay6 x0) (k0_pay7 xf) a1))) -∗ K ⟨⟩))
      ⊢ wp frame (wpE (defs₀ (F := F)) Variants.none c none) E (cc0__ptm_loss_kernel i arg1 harg1 arg2 harg2 arg3 harg3 arg4 harg4 arg5 harg5) K := by
  simp only [cc0__ptm_loss_kernel_eq_skeleton]; unfold cc0__ptm_loss_kernel_skel
  simp only [k0_part1_eq_skeleton, k0_part2_eq_skeleton]
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc0 | exact hc1)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    rw [read_store_whole _ _ hz2]
    simp only [View.readAt_eq_ld, hf1, hf4, View.ld_unit_zero (S := S128x128) hz2, View.ld_unit_zero (S := S8192x128) hz2, View.ld_unit_zero (S := S1x1) hz2]
  · iexists _; isplitr; swap; · iexact H5
    ipureintro
    rw [read_store_whole _ _ hz2]
    sl_unfold_run_names
    simp only [View.readAt_eq_ld, hf1, hf2, hf5, View.ld_unit_zero (S := S128x128) hz2, View.ld_unit_zero (S := S8192x128) hz2, View.ld_unit_zero (S := S1x1) hz2]

end Cert.Kernel.Hand

end
-- ==== Proof.BitsBodyLast.lean ====
/-
  The word-level kernel body at the last grid point: the accumulators updated and the result cell stored.
  (The word-level program has the same text as the idealized one; this module is the same argument over it.)
-/
import proofs.«127044_j82729660056292_2_alg».proof.Proof.BitsBodyBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-- The store made last, of w through the whole-shape rectangle at zero offsets, read back through the view, is w. -/
theorem read_store_head {Val : EltTy → Type} [∀ e, Nonempty (Val e)] {sig' : RefSig} {κ : Kind} {sp : Space} {S : Shape} {e : EltTy}
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb w L]

set_option maxHeartbeats 2000000 in
/-- The body at the last point: the two accumulators are updated as at an interior point, then the result cell,
    whatever it held, is set to the first accumulator over the number of rows plus the second over the number of
    pairs; the inputs are left as they were. -/
theorem run_last (c : Dev nD) (i : grid0.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole)
    (hc0 : ¬condFirst i) (hc1 : condLast i)
    (x0 : Vec F S128x128 .f32) (xf : Vec F S8192x128 .f32) (a0 a1 : Vec F S1x1 .f32) (E : Set ℕ) (K : PUnit → sProp 𝕄) :
    iprop(owns (c : Thread nD τ) arg1 fullShare x0 ∗ owns (c : Thread nD τ) arg2 fullShare xf ∗ (∃ d, owns (c : Thread nD τ) arg3 fullShare d)
        ∗ owns (c : Thread nD τ) arg4 fullShare a0 ∗ owns (c : Thread nD τ) arg5 fullShare a1
        ∗ (iprop(owns (c : Thread nD τ) arg1 fullShare x0 ∗ owns (c : Thread nD τ) arg2 fullShare xf
            ∗ owns (c : Thread nD τ) arg3 fullShare (k0_pay2 (k0_pay5 x0 a0) (k0_pay1 (k0_pay8 (BitVec.ofNat 32 (i 0).val) x0 xf (k0_pay6 x0) (k0_pay7 xf) a1)))
            ∗ owns (c : Thread nD τ) arg4 fullShare (k0_pay5 x0 a0)
            ∗ owns (c : Thread nD τ) arg5 fullShare (k0_pay1 (k0_pay8 (BitVec.ofNat 32 (i 0).val) x0 xf (k0_pay6 x0) (k0_pay7 xf) a1))) -∗ K ⟨⟩))
      ⊢ wp frame (wpE (defs₀ (F := F)) Variants.none c none) E (cc0__ptm_loss_kernel i arg1 harg1 arg2 harg2 arg3 harg3 arg4 harg4 arg5 harg5) K := by
  simp only [cc0__ptm_loss_kernel_eq_skeleton]; unfold cc0__ptm_loss_kernel_skel
  simp only [k0_part1_eq_skeleton, k0_part2_eq_skeleton]
  unfold owns
  iintro ⟨⟨%f1, %hf1, H1⟩, ⟨%f2, %hf2, H2⟩, ⟨%d3, %f3, -, H3⟩, ⟨%f4, %hf4, H4⟩, ⟨%f5, %hf5, H5⟩, Hk⟩
  obtain rfl := harg1.eq_unread hf1; obtain rfl := harg2.eq_unread hf2
  obtain rfl := harg4.eq_unread hf4; obtain rfl := harg5.eq_unread hf5
  sl_exec (disch := first | exact hc0 | exact hc1)
  sl_step

  iapply Hk
  isplitl [H1]
  · iexists _; isplitr; · ipureintro; exact hf1
    iexact H1
  isplitl [H2]
  · iexists _; isplitr; · ipureintro; exact hf2
    iexact H2
  isplitl [H3]
  · iexists _; isplitr; swap; · iexact H3
    ipureintro
    sl_unfold_run_names
    rw [read_store_head _ _ hz2]
    simp only [View.readAt_eq_ld, hf1, hf2, hf4, hf5, View.readCov_unit_zero (S := S1x1) _ hz2, View.ld_unit_zero (S := S128x128) hz2, View.ld_unit_zero (S := S8192x128) hz2, View.ld_unit_zero (S := S1x1) hz2]
  isplitl [H4]
  · iexists _; isplitr; swap; · iexact H4
    ipureintro
    sl_unfold_run_names
    rw [read_store_head _ _ hz2]
    simp only [View.readAt_eq_ld, hf1, hf4, View.ld_unit_zero (S := S128x128) hz2, View.ld_unit_zero (S := S8192x128) hz2, View.ld_unit_zero (S := S1x1) hz2]
  · iexists _; isplitr; swap; · iexact H5
    ipureintro
    sl_unfold_run_names
    rw [read_store_head _ _ hz2]
    simp only [View.readAt_eq_ld, hf1, hf2, hf5, View.ld_unit_zero (S := S128x128) hz2, View.ld_unit_zero (S := S8192x128) hz2, View.ld_unit_zero (S := S1x1) hz2]

end Cert.Kernel.Hand

end
-- ==== Proof.BitsObligation.lean ====
/-
  The word-level kernel body meets the pipeline's obligation at every grid point, by cases on the point.
  (The word-level program has the same text as the idealized one; this module is the same argument over it.)
-/
import proofs.«127044_j82729660056292_2_alg».proof.Proof.BitsFrameData
import proofs.«127044_j82729660056292_2_alg».proof.Proof.BitsBodyFirst
import proofs.«127044_j82729660056292_2_alg».proof.Proof.BitsBodyMid
import proofs.«127044_j82729660056292_2_alg».proof.Proof.BitsBodyLast

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem leaves0 (c : Dev nD) (t : Fin cfg0.N) :
    (dats m 0 c).leavesExact 0 t = owns (c : Thread nD τ) (st0_0 t) fullShare (iblk m c 0 t) := by
  unfold Dat.leavesExact; rw [liveAt0 t, after0]
theorem leaves1 (c : Dev nD) (t : Fin cfg0.N) :
    (dats m 0 c).leavesExact 1 t = owns (c : Thread nD τ) (st0_1 t) fullShare (iblk m c 1 t) := by
  unfold Dat.leavesExact; rw [liveAt1 t, after1]

set_option maxHeartbeats 4000000 in
/-- The body at any point: the inputs' buffers hold the point's row block and the whole array; at the first point
    the accumulators hold anything and are started; afterwards they hold the running sums up to the point before and
    gain this point's terms; at the last point the result is stored from them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) from rfl, Phi_castSucc, leaves0, leaves1]
  have hN : t.val < 64 := lt_of_lt_of_eq t.isLt N_0
  by_cases h0 : t.val = 0
  · have hF : condFirst (grid0.coords t) := (hcondFirst t).mpr h0
    have hL : ¬condLast (grid0.coords t) := fun h => by have := (hcondLast t).mp h; omega
    rw [Dat.leavesExact_idle (dats m 0 c) 2 t (idleAt2 t hL) (noFlush2 t hL)]
    rw [h0]
    rw [show PhiS m c 0 = Pipeline.scopedRest spec0 c from rfl, Phi0_eq]
    rw [show PhiS m c (0 + 1) = iprop(owns (c : Thread nD τ) scM0 fullShare (Acc.acc0 (xArr m c) 0) ∗ owns (c : Thread nD τ) scM1 fullShare (Acc.acc1 (xArr m c) 0)) from rfl]
    iintro ⟨⟨HS0, HS1⟩, Ho, ⟨%d0, H0⟩, ⟨%d1, H1⟩, ⟨%d2, H2⟩⟩
    iapply (run_first c (grid0.coords t) _ _ _ _ _ _ _ _ _ _ hF hL (iblk m c 0 t) (iblk m c 1 t) _ Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    rw [coords0 t, iblk0_eq m c t, iblk1_eq m c t, h0]
    isplitl [HS0 HS1]
    · isplitl [HS0]; · iexact HS0
      iexact HS1
    isplitl [Ho]; · iexact Ho
    isplitl [H0]; · iexact H0
    isplitl [H1]; · iexact H1
    iexists _; iexact H2
  · obtain ⟨n, hn⟩ := Nat.exists_eq_succ_of_ne_zero h0
    have hF : ¬condFirst (grid0.coords t) := fun h => h0 ((hcondFirst t).mp h)
    rw [hn]
    rw [show PhiS m c (n + 1) = iprop(owns (c : Thread nD τ) scM0 fullShare (Acc.acc0 (xArr m c) n) ∗ owns (c : Thread nD τ) scM1 fullShare (Acc.acc1 (xArr m c) n)) from rfl]
    rw [show PhiS m c (n + 1 + 1) = iprop(owns (c : Thread nD τ) scM0 fullShare (Acc.acc0 (xArr m c) (n + 1)) ∗ owns (c : Thread nD τ) scM1 fullShare (Acc.acc1 (xArr m c) (n + 1))) from rfl]
    by_cases h1 : t.val = 63
    · have hL : condLast (grid0.coords t) := (hcondLast t).mpr h1
      rw [show (dats m 0 c).leavesExact 2 t = owns (c : Thread nD τ) (st0_2 t) fullShare ((dats m 0 c).after 2 t) from by
        unfold Dat.leavesExact; rw [liveAt2 t hL], after2]
      iintro ⟨⟨HS0, HS1⟩, Ho, ⟨%d0, H0⟩, ⟨%d1, H1⟩, ⟨%d2, H2⟩⟩
      iapply (run_last c (grid0.coords t) _ _ _ _ _ _ _ _ _ _ hF hL (iblk m c 0 t) (iblk m c 1 t) _ _ Set.univ _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      rw [coords0 t, iblk0_eq m c t, iblk1_eq m c t, hn]
      have hn62 : n + 1 = 63 := by omega
      isplitl [HS0 HS1]
      · isplitl [HS0]; · iexact HS0
        iexact HS1
      isplitl [Ho]; · iexact Ho
      isplitl [H0]; · iexact H0
      isplitl [H1]; · iexact H1
      rw [show Acc.out (xArr m c) = k0_pay2 (Acc.acc0 (xArr m c) (n + 1)) (Acc.acc1 (xArr m c) (n + 1)) from by rw [hn62]; rfl]
      iexact H2
    · have hL : ¬condLast (grid0.coords t) := fun h => h1 ((hcondLast t).mp h)
      rw [Dat.leavesExact_idle (dats m 0 c) 2 t (idleAt2 t hL) (noFlush2 t hL)]
      iintro ⟨⟨HS0, HS1⟩, Ho, ⟨%d0, H0⟩, ⟨%d1, H1⟩, ⟨%d2, H2⟩⟩
      iapply (run_mid c (grid0.coords t) _ _ _ _ _ _ _ _ _ _ hF hL (iblk m c 0 t) (iblk m c 1 t) _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      rw [coords0 t, iblk0_eq m c t, iblk1_eq m c t, hn]
      isplitl [HS0 HS1]
      · isplitl [HS0]; · iexact HS0
        iexact HS1
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.BodyBase.lean ====
/-
  What the three cases of the kernel body's run share: the two branch conditions as propositions over the grid
  coordinate, and the fact that one whole-buffer store read back is the stored value.
-/
import proofs.«127044_j82729660056292_2_alg».proof.Proof.Gen.KernelIdeal.Launch
import proofs.«127044_j82729660056292_2_alg».proof.Proof.Gen.KernelIdeal.Skeleton
import proofs.«127044_j82729660056292_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

/-- The first point of the grid: the body's first branch is taken exactly there. -/
abbrev condFirst (i : grid0.Coords) : Prop := (Scalar.cmpi .ne (Scalar.extui (Scalar.cmpi .eq (BitVec.ofNat 32 (i 0).val) 0#32)) 0#32) = 1#1
/-- The last point of the grid: the body's second branch is taken exactly there. -/
abbrev condLast (i : grid0.Coords) : Prop := k0_cond2 i = 1#1

/-- The zero offsets of a rank-2 rectangle, however spelt. -/
theorem hz2 : (![0, 0] : Fin 2 → Nat) = fun _ => 0 := by
  funext a; match a with | ⟨0, _⟩ => rfl | ⟨1, _⟩ => rfl

/-- One store of w through the whole-shape rectangle at zero offsets, read back through the view, is w, whatever the
    buffer held. -/
theorem read_store_whole {Val : EltTy → Type} [∀ e, Nonempty (Val e)] {sig' : RefSig} {κ : Kind} {sp : Space} {S : Shape} {e : EltTy}
    (v : View sig' κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero h inb y⟩),
    View.canon_unit_zero h inb w]

end Cert.KernelIdeal.Hand

end
-- ==== Proof.Acc.lean ====
/-
  The kernel's two running sums as pure recursions over the grid points, through the body's own arithmetic.

  At point t the body reads rows [128·t, 128·t + 128) of x (its row block) and the whole of x, and rewrites two
  one-cell accumulators: the first gains the block's 128 row terms, the second the block's 128 × 8192 pair terms.
  Point 0 starts both from zero. After the last point, 63, the result is the first over 8192 plus the second over
  the number of pairs.
-/
import proofs.«127044_j82729660056292_2_alg».proof.Proof.Gen.KernelIdeal.Skeleton
import Idealize.ShloMosaic.Lib.ValueIdx

noncomputable section

namespace Cert.KernelIdeal.Acc

open Idealize.ShloMosaic Idealize.ShloMosaic.ValueIdx Cert.KernelIdeal Cert.KernelIdeal.Gen

variable {F : FTy → Type} [FloatOps F]

/-- Rows [128·t, 128·t + 128) of x as a 128 × 128 block (t < 64; the row is taken modulo 8192 only so that the
    definition is total). -/
def rowBlock (x : Vec F S8192x128 .f32) (t : Nat) : Vec F S128x128 .f32 :=
  fun y => x (ix2 (⟨(t * 128 + (y 0).val) % 8192, Nat.mod_lt _ (by decide)⟩ : Fin 8192) (⟨(y 1).val, (y 1).isLt⟩ : Fin 128))

/-- The first accumulator after point t. -/
def acc0 (x : Vec F S8192x128 .f32) : Nat → Vec F S1x1 .f32
  | 0 => k0_pay5 (rowBlock x 0) (k0_pay3 (F := F))
  | t + 1 => k0_pay5 (rowBlock x (t + 1)) (acc0 x t)

/-- The second accumulator after point t. -/
def acc1 (x : Vec F S8192x128 .f32) : Nat → Vec F S1x1 .f32
  | 0 => k0_pay1 (k0_pay8 (BitVec.ofNat 32 0) (rowBlock x 0) x (k0_pay6 (rowBlock x 0)) (k0_pay7 x) (k0_pay4 (F := F)))
  | t + 1 => k0_pay1 (k0_pay8 (BitVec.ofNat 32 (t + 1)) (rowBlock x (t + 1)) x (k0_pay6 (rowBlock x (t + 1))) (k0_pay7 x) (acc1 x t))

/-- What the last point stores as the result. -/
def out (x : Vec F S8192x128 .f32) : Vec F S1x1 .f32 := k0_pay2 (acc0 x 63) (acc1 x 63)

end Cert.KernelIdeal.Acc

end
-- ==== Proof.FrameData.lean ====
/-
  The proof data of the kernel's one pipeline: the blocks the two input windows read (rows [128·t, 128·t + 128) of
  the argument array, and the whole array), where the grid's branch conditions hold, the invariant carrying the two
  running sums from point to point, and what every staging buffer holds when the body runs.
-/
import proofs.«127044_j82729660056292_2_alg».proof.Proof.BodyBase
import proofs.«127044_j82729660056292_2_alg».proof.Proof.Acc

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- The core's buffer contents when the region is entered: no host operation comes before it. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem V_main_arg0 (c : Dev nD) : V m c main_arg0 = m ((c : Thread nD τ).loc main_arg0) := rfl

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first grid point. -/
abbrev t0 : Fin cfg0.N := ⟨0, by decide⟩

/-- The argument array as an 8192 × 128 array of elements: the second window's one block. -/
def xArr (c : Dev nD) : Vec F S8192x128 .f32 := iblk m c 1 t0

/-- The first window's block index is (t, 0): rows [128·t, 128·t + 128). -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
/-- The second window's block index is (0, 0) at every point: the whole array. -/
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
/-- The grid has one axis: the coordinate of point t is t. -/
theorem coords0 : ∀ t : Fin cfg0.N, ((grid0.coords t) 0).val = t.val :=
  (by decide +kernel : ∀ t : Fin grid0.N, ((grid0.coords t) 0).val = t.val)

/-- The second window's block is the whole array at every point. -/
theorem iblk1_eq (c : Dev nD) (t : Fin cfg0.N) : iblk m c 1 t = xArr m c := by
  funext j
  show V m c main_arg0 (((cfg0.win 1).blk t).view.emb j) = V m c main_arg0 (((cfg0.win 1).blk t0).view.emb j)
  have h : ((cfg0.win 1).blk t).view.emb j = ((cfg0.win 1).blk t0).view.emb j := by
    obtain ⟨e0, e1⟩ := idx1 t; obtain ⟨z0, z1⟩ := idx1 t0
    funext a; apply Fin.ext
    match a with
    | ⟨0, _⟩ => show win0_1.index t (0 : Fin 2) * 8192 + 1 * (j 0).val = win0_1.index t0 (0 : Fin 2) * 8192 + 1 * (j 0).val; omega
    | ⟨1, _⟩ => show win0_1.index t (1 : Fin 2) * 128 + 1 * (j 1).val = win0_1.index t0 (1 : Fin 2) * 128 + 1 * (j 1).val; omega
  rw [h]

/-- The first window's block at point t is rows [128·t, 128·t + 128) of the array. -/
theorem iblk0_eq (c : Dev nD) (t : Fin cfg0.N) : iblk m c 0 t = Acc.rowBlock (xArr m c) t.val := by
  funext j
  have ht : t.val < 64 := lt_of_lt_of_eq t.isLt N_0
  have hj0 : (j 0).val < 128 := (j 0).isLt
  have hj1 : (j 1).val < 128 := (j 1).isLt
  show V m c main_arg0 (((cfg0.win 0).blk t).view.emb j)
    = V m c main_arg0 (((cfg0.win 1).blk t0).view.emb (ix2 (⟨(t.val * 128 + (j 0).val) % 8192, Nat.mod_lt _ (by decide)⟩ : Fin 8192) (⟨(j 1).val, (j 1).isLt⟩ : Fin 128)))
  have h : ((cfg0.win 0).blk t).view.emb j
      = ((cfg0.win 1).blk t0).view.emb (ix2 (⟨(t.val * 128 + (j 0).val) % 8192, Nat.mod_lt _ (by decide)⟩ : Fin 8192) (⟨(j 1).val, (j 1).isLt⟩ : Fin 128)) := by
    obtain ⟨e0, e1⟩ := idx0 t; obtain ⟨z0, z1⟩ := idx1 t0
    funext a; apply Fin.ext
    match a with
    | ⟨0, _⟩ => show win0_0.index t (0 : Fin 2) * 128 + 1 * (j 0).val = win0_1.index t0 (0 : Fin 2) * 8192 + 1 * ((t.val * 128 + (j 0).val) % 8192); omega
    | ⟨1, _⟩ => show win0_0.index t (1 : Fin 2) * 128 + 1 * (j 1).val = win0_1.index t0 (1 : Fin 2) * 128 + 1 * (j 1).val; omega
  rw [h]

/-! ## @main around the region -/

theorem hostOps1_fresh : (hostOps1 : List (HloOp τ sig (Elt F))).Forall fun op => op.fresh = ∅ := by
  simp only [List.Forall]; repeat' constructor

/-- @main is the region continued by the one host line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-! ## The branch conditions and the idle points, decided over the grid -/

theorem hcondFirst : ∀ t : Fin cfg0.N, condFirst (grid0.coords t) ↔ t.val = 0 :=
  (by decide +kernel : ∀ t : Fin grid0.N, condFirst (grid0.coords t) ↔ t.val = 0)
theorem hcondLast : ∀ t : Fin cfg0.N, condLast (grid0.coords t) ↔ t.val = 63 :=
  (by decide +kernel : ∀ t : Fin grid0.N, condLast (grid0.coords t) ↔ t.val = 63)
theorem liveAt0 : ∀ t : Fin cfg0.N, cfg0.idle 0 (grid0.coords t) = false := by decide +kernel
theorem liveAt1 : ∀ t : Fin cfg0.N, cfg0.idle 1 (grid0.coords t) = false := by decide +kernel
/-- Away from the last point the result window is idle and not written back; -/
theorem idleAt2 : ∀ t : Fin cfg0.N, ¬condLast (grid0.coords t) → cfg0.idle 2 (grid0.coords t) = true := by decide +kernel
theorem noFlush2 : ∀ t : Fin cfg0.N, ¬condLast (grid0.coords t) → (cfg0.win 2).flush t = false := by decide +kernel
/-- at the last point it is live. -/
theorem liveAt2 : ∀ t : Fin cfg0.N, condLast (grid0.coords t) → cfg0.idle 2 (grid0.coords t) = false := by decide +kernel

/-! ## The scratch accumulators and the invariant -/

abbrev scM0 : Memref sig .tc .vmem S1x1 .f32 := Memref.whole cc0_scratch0
abbrev scM1 : Memref sig .tc .vmem S1x1 .f32 := Memref.whole cc0_scratch1

/-- What the launch hands the region besides the windows: the two accumulators, at anything. -/
theorem Phi0_eq (c : Dev nD) :
    (Pipeline.scopedRest spec0 c : sProp 𝕄)
      = iprop((∃ d, owns (c : Thread nD τ) scM0 fullShare d) ∗ (∃ d, owns (c : Thread nD τ) scM1 fullShare d)) := by
  rw [scopedRest0_eq]; simp only [scM0, scM1, owns_whole]; try rfl

/-- The invariant before position n: before the first point the accumulators hold anything; after point n they hold
    the running sums over the row blocks 0 … n. -/
def PhiS (c : Dev nD) : ℕ → sProp 𝕄
  | 0 => Pipeline.scopedRest spec0 c
  | n + 1 => iprop(owns (c : Thread nD τ) scM0 fullShare (Acc.acc0 (xArr m c) n) ∗ owns (c : Thread nD τ) scM1 fullShare (Acc.acc1 (xArr m c) n))

/-! ## The proof data -/

/-- The pipeline's proof data on core c: the arrays as the region finds them; each input's buffer left at its block;
    the result's buffer, where the body stores it (the last point), at the final value; the invariant above; the array
    both input windows read is shared between them, half each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => Acc.out (xArr m c)
  Φ t := PhiS m c t.val
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = Acc.out (xArr m c) := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)

end Cert.KernelIdeal.Hand

end
-- ==== Proof.Run.lean ====
/-
  The launch of the kernel's pipeline and the run of @main. Both input windows read the one argument array, so at
  entry its full share is split in two halves, one per window; the result array goes whole to the output window.
  After the region the one host line reshapes the 1 × 1 result array into the scalar result; it touches the result
  array and the result buffer only. The run ends with the argument array unchanged and the result buffer at that
  line's value of the region's exit contents.
-/
import proofs.«127044_j82729660056292_2_alg».proof.Proof.FrameData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The array both input windows read, dealt between them -/

/-- At entry the two arrays behind the three windows, each whole, make the windows' arrays: the argument array's full
    share splits in two halves, one per input window; the result array goes whole to the output window. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_W0,
    Idealize.SL.BI.bigSep_eq_bigSepL_of_eq [main_arg0, main_call0_v0] (by decide) (by decide)]
  show iprop((((c.tc : Thread nD τ).loc main_arg0) ↦{fullShare} V m c main_arg0) ∗ (((c.tc : Thread nD τ).loc main_call0_v0) ↦{fullShare} V m c main_call0_v0))
    ⊢ iprop((((c.tc : Thread nD τ).loc main_arg0) ↦[(spec0 0).arr.view.set]{fullShare.left} V m c main_arg0)
        ∗ (((c.tc : Thread nD τ).loc main_arg0) ↦[(spec0 1).arr.view.set]{fullShare.right} V m c main_arg0)
        ∗ (((c.tc : Thread nD τ).loc main_call0_v0) ↦[(spec0 2).arr.view.set]{fullShare} V m c main_call0_v0))
  rw [(arr_whole0 0).set_eq_univ, (arr_whole0 2).set_eq_univ]
  iintro ⟨HA, HO⟩
  ihave HA' := (pointsTo_share (PosShare.mem_left_op_right fullShare)).1 $$ HA
  icases HA' with ⟨HL, HR⟩
  isplitl [HL]; · iexact HL
  isplitl [HR]; · iexact HR
  iexact HO

/-! ## The host line after the region -/

/-- The result array is the output window's alone: the exit contents at it are the output window's array. -/
theorem withArrays_out (c : Dev nD) (V₁ : Valuation τ sig (Elt F))
    (A : (w : Fin 3) → Buf (Elt F) ((spec0 w).arr.view.loc (c.tc : Thread nD τ))) :
    Pipeline.withArrays spec0 c V₁ A (Proc.devRef .tc main_call0_v0) = A 2 := by
  unfold Pipeline.withArrays
  have h : ∃ w', Proc.devRef .tc (Pipeline.arrRef spec0 w') = Proc.devRef (τ := τ) .tc main_call0_v0 := ⟨2, rfl⟩
  rw [dif_pos h]
  suffices ∀ (w' : Fin 3) (e : Proc.devRef .tc (Pipeline.arrRef spec0 w') = Proc.devRef (τ := τ) .tc main_call0_v0),
      cast (congrArg (fun b' : DevRef τ sig => b'.ty.Contents (Elt F)) e) (A w') = A 2 from this _ h.choose_spec
  intro w' e
  obtain rfl : w' = 2 :=
    (by decide : ∀ w' : Fin 3, Pipeline.arrRef spec0 w' = main_call0_v0 → w' = 2) w' (Proc.devRef_injective _ e)
  rfl

/-- The core's buffer contents when the region is left: the windows' arrays after every write-back, the rest as at entry. -/
def Wx (c : Dev nD) : Valuation τ sig (Elt F) :=
  Pipeline.withArrays spec0 c (V0 m c) fun w => (dats m 0 c).arrAt w cfg0.N

/-- And after the host line that follows the region. -/
def Vf (c : Dev nD) : Valuation τ sig (Elt F) := StableHlo.after hostOps1 (Wx m c)

theorem Wx_out (c : Dev nD) : Wx m c (Proc.devRef .tc main_call0_v0) = (dats m 0 c).arrAt 2 cfg0.N :=
  withArrays_out c _ _

theorem Wx_res (c : Dev nD) : Wx m c (Proc.devRef .tc main_v0) = V m c main_v0 :=
  Pipeline.withArrays_of_ne spec0 c (V0 m c) _ main_v0 (by decide)

/-- The host line writes the result buffer only: the result array keeps its exit contents. -/
theorem Vf_out (c : Dev nD) : Vf m c (Proc.devRef .tc main_call0_v0) = (dats m 0 c).arrAt 2 cfg0.N := by
  unfold Vf
  rw [StableHlo.after_of_forall_not_mem _ _ fun op hop => ?_, Wx_out]
  simp only [hostOps1, List.mem_cons, List.mem_nil_iff, or_false] at hop
  subst hop
  simp only [StableHlo.reshape_writes, Finset.mem_singleton]
  exact StableHlo.devRef_ne_of_ne (by decide)

/-- The two buffers the host line touches. -/
abbrev Sx : Finset (DevRef τ sig) := {Proc.devRef .tc main_call0_v0, Proc.devRef .tc main_v0}

theorem held_Sx (c : Dev nD) (W : Valuation τ sig (Elt F)) :
    (StableHlo.held (c.tc : Thread nD τ) Sx W : sProp 𝕄)
      = iprop((((c.tc : Thread nD τ).loc main_call0_v0) ↦{fullShare} W (Proc.devRef .tc main_call0_v0))
          ∗ (((c.tc : Thread nD τ).loc main_v0) ↦{fullShare} W (Proc.devRef .tc main_v0))) := by
  unfold StableHlo.held Sx
  rw [bigSep_insert (Finset.mem_singleton.not.mpr (StableHlo.devRef_ne_of_ne (by decide))), bigSep_singleton]
  rfl

theorem hostOps1_Sx : ∀ ops ∈ ([hostOps1] : List (List (HloOp τ sig (Elt F)))), ∀ op ∈ ops, op.bufs ⊆ Sx := by
  intro ops hops op hop
  simp only [List.mem_cons, List.mem_nil_iff, or_false] at hops
  subst hops
  simp only [hostOps1, List.mem_cons, List.mem_nil_iff, or_false] at hop
  subst hop
  exact Finset.Subset.refl _

theorem hostOps1_fresh' : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

set_option backward.isDefEq.respectTransparency.types false in
/-- From the region's exit the host line runs holding the result array (whole, the output window's) and the result
    buffer, and hands back the windows' arrays as they were and the result buffer at the line's value. -/
theorem htail (c : Dev nD) (Q' : PUnit → sProp 𝕄) :
    iprop((iprop((dats m 0 c).arrays ((dats m 0 c).arrAt · cfg0.N) ∗ Pipeline.unscopedRest spec0 c (fun b => Vf m c (Proc.devRef .tc b))) -∗ Q' ⟨⟩)
        ∗ boundary (c.tc : Thread nD τ) ∗ (dats m 0 c).arrays ((dats m 0 c).arrAt · cfg0.N) ∗ Pipeline.unscopedRest spec0 c (V m c))
      ⊢ wp frame (wpE (Pipeline.defs (pcfgs (F := F)) defs₀) (Variants.lift Variants.none) (c.tc : Thread nD τ) none) Set.univ
          (Pipeline.chain [StableHlo.seq hostOps1]) Q' := by
  rw [unscopedRest0_eq, unscopedRest0_eq]
  unfold Dat.arrays
  rw [bigSep_W0]
  rw [show (dats m 0 c).share 2 = fullShare from rfl, (arr_whole0 2).set_eq_univ]
  have hfin : (StableHlo.held (c.tc : Thread nD τ) Sx (StableHlo.after ([hostOps1] : List (List (HloOp τ sig (Elt F)))).flatten (Wx m c)) : sProp 𝕄)
      = iprop((((c.tc : Thread nD τ).loc main_call0_v0) ↦{fullShare} (dats m 0 c).arrAt 2 cfg0.N)
          ∗ (((c.tc : Thread nD τ).loc main_v0) ↦{fullShare} Vf m c (Proc.devRef .tc main_v0))) := by
    rw [show StableHlo.after ([hostOps1] : List (List (HloOp τ sig (Elt F)))).flatten (Wx m c) = Vf m c from by
      unfold Vf; simp only [List.flatten_cons, List.flatten_nil, List.append_nil], held_Sx, Vf_out]
  iintro ⟨Hk, Hb, ⟨HA0, HA1, HA2⟩, HV⟩
  iapply (Pipeline.wp_seqs_then (pcfgs (F := F)) defs₀ Variants.none c Sx [] [hostOps1] hostOps1_Sx hostOps1_fresh' (Wx m c)) $$ [Hb HA2 HV]
  · rw [held_Sx, Wx_out, Wx_res]
    isplitl [Hb]; · iexact Hb
    isplitl [HA2]; · iexact HA2
    iexact HV
  iintro ⟨Hb, Hh⟩
  rw [Pipeline.chain_nil, wp_pure]
  imodintro
  iapply Hk
  ihave Hh' := (Entails.of_eq hfin) $$ Hh
  icases Hh' with ⟨HA2, HV⟩
  isplitl [HA0 HA1 HA2]
  · isplitl [HA0]; · iexact HA0
    isplitl [HA1]; · iexact HA1
    iexact HA2
  iexact HV

/-! ## The launch -/

/-- After the last point the invariant gives the two accumulators back, at whatever they hold. -/
theorem hout (c : Dev nD) : (dats m 0 c).Φ (Fin.last cfg0.N) ⊢ iprop((BI.emp : sProp 𝕄) ∗ Pipeline.scopedRest spec0 c) := by
  rw [show (dats m 0 c).Φ (Fin.last cfg0.N) = iprop(owns (c : Thread nD τ) scM0 fullShare (Acc.acc0 (xArr m c) 63) ∗ owns (c : Thread nD τ) scM1 fullShare (Acc.acc1 (xArr m c) 63)) from rfl, Phi0_eq]
  iintro ⟨H0, H1⟩
  isplitr; · iempintro
  isplitl [H0]; · iexists _; iexact H0
  iexists _; iexact H1

set_option backward.isDefEq.respectTransparency.types false in
/-- THE RUN, given the body's obligation: every weakly fair execution of @main terminates, nothing faulting, with the
    argument array unchanged and the result buffer at the host line's value of the region's exit contents. -/
theorem run_main_of (hbody : ∀ c, BodyObligation (dats (F := F) m 0 c) (defs₀ (F := F)) Variants.none () Set.univ) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_v0) = Vf m c (Proc.devRef .tc main_v0)) :=
  Pipeline.θ_run_region_noSem_pf_tail (fun q => (cfgs q).toPCfg (Val := Elt F)) (fun q => (cfgs q).toPCfg_adm) (dats m) () cellOf_inj (0 : Fin 1)
    winFacts₀0 (Pipeline.PreFacts.none _) emb₁ defs₀ Variants.none m ρ main (fun _ => Pipeline.chain [StableHlo.seq hostOps1])
    (hbody := fun c => (hbody c).loose)
    (hne := block_pos0) (harr := arr_whole0) (hstage := stage_whole0) (howed := fun _ _ => rfl)
    (u₀ := initOf (Pipeline.cells cfgs cellOf_inj) (Pipeline.launchToks cfgs cellOf_inj))
    (hu₀ := Idealize.SL.BI.Entails.refl _)
    (V := V m) (hmain := hmain m Variants.none)
    (hsplit := hsplit m) (hpf := fun _ k => k.elim0)
    (X := fun _ => BI.emp) (Y := fun _ => BI.emp)
    (Z := fun c => Pipeline.unscopedRest spec0 c (V m c))
    (Z' := fun c => Pipeline.unscopedRest spec0 c (fun b => Vf m c (Proc.devRef .tc b)))
    (hX := fun c => by
      rw [Pipeline.unscopedRestP_none]
      iintro H
      isplitr; · iempintro
      iexact H)
    (hin := fun c => by
      rw [show (dats m 0 c).Φ 0 = Pipeline.scopedRest spec0 c from rfl]
      iintro ⟨-, -, HR⟩
      iexact HR)
    (hout := fun c => hout m c)
    (htail := fun c Q' => htail m c Q')
    (QY := fun c s => ∀ b ∈ Pipeline.restRefs sig spec0, s.mem ((c.tc : Thread nD τ).loc b) = Vf m c (Proc.devRef .tc b))
    (hY := fun c s' => by
      iintro ⟨-, HU, HSI⟩
      unfold Pipeline.unscopedRest
      imodintro
      iapply (pointsTo_read_all (Pipeline.restRefs sig spec0) (fun b => (c.tc : Thread nD τ).loc b) (fun b => Vf m c (Proc.devRef .tc b)) s')
      isplitl [HU] <;> iassumption)
    (hQ := fun s h c => ⟨((h c).1 0).trans (((dats m 0 c).arrAt_in 0 rfl _).trans ((A_eq m c 0).trans (V_main_arg0 m c))),
      (h c).2.2 main_v0 (by decide)⟩)

end Cert.KernelIdeal.Hand

end
-- ==== Proof.BodyFirst.lean ====
/-
  The kernel body at the first grid point, run once on arbitrary whole buffers: the first branch zeroes the two
  accumulators, which are then updated from the point's row block and the whole array.
-/
import proofs.«127044_j82729660056292_2_alg».proof.Proof.BodyBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-- The LAST store, of w through the whole-shape rectangle at zero offsets, read back through the view, is w,
    whatever was stored before it. -/
theorem read_store_last {Val : EltTy → Type} [∀ e, Nonempty (Val e)] {sig' : RefSig} {κ : Kind} {sp : Space} {S : Shape} {e : EltTy}
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb w L]

set_option maxHeartbeats 2000000 in
/-- The body at the first point: whatever the two accumulators held, they are zeroed, then updated from the point's
    row block and the whole array; the inputs and the result cell are left as they were. -/
theorem run_first (c : Dev nD) (i : grid0.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole)
    (hc0 : condFirst i) (hc1 : ¬condLast i)
    (x0 : Vec F S128x128 .f32) (xf : Vec F S8192x128 .f32) (o : Vec F S1x1 .f32) (E : Set ℕ) (K : PUnit → sProp 𝕄) :
    iprop(owns (c : Thread nD τ) arg1 fullShare x0 ∗ owns (c : Thread nD τ) arg2 fullShare xf ∗ owns (c : Thread nD τ) arg3 fullShare o
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare xf ∗ owns (c : Thread nD τ) arg3 fullShare o
            ∗ owns (c : Thread nD τ) arg4 fullShare (k0_pay5 x0 (k0_pay3 (F := F)))
            ∗ owns (c : Thread nD τ) arg5 fullShare (k0_pay1 (k0_pay8 (BitVec.ofNat 32 (i 0).val) x0 xf (k0_pay6 x0) (k0_pay7 xf) (k0_pay4 (F := F))))) -∗ K ⟨⟩))
      ⊢ wp frame (wpE (defs₀ (F := F)) Variants.none c none) E (cc0__ptm_loss_kernel i arg1 harg1 arg2 harg2 arg3 harg3 arg4 harg4 arg5 harg5) K := by
  simp only [cc0__ptm_loss_kernel_eq_skeleton]; unfold cc0__ptm_loss_kernel_skel
  simp only [k0_part1_eq_skeleton, k0_part2_eq_skeleton]
  unfold owns
  iintro ⟨⟨%f1, %hf1, H1⟩, ⟨%f2, %hf2, H2⟩, ⟨%f3, %hf3, H3⟩, ⟨%d4, %f4, -, H4⟩, ⟨%d5, %f5, -, H5⟩, Hk⟩
  obtain rfl := harg1.eq_unread hf1; obtain rfl := harg2.eq_unread hf2; obtain rfl := harg3.eq_unread hf3
  sl_exec (disch := first | exact hc0 | exact hc1)
  sl_step

  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    rw [read_store_last _ _ hz2]
    sl_unfold_run_names
    simp only [View.readAt_eq_ld, hf1, View.readCov_unit_zero (S := S1x1) _ hz2, View.ld_unit_zero (S := S128x128) hz2, View.ld_unit_zero (S := S8192x128) hz2, View.ld_unit_zero (S := S1x1) hz2]
  · iexists _; isplitr; swap; · iexact H5
    ipureintro
    rw [read_store_last _ _ hz2]
    sl_unfold_run_names
    simp only [View.readAt_eq_ld, hf1, hf2, View.readCov_unit_zero (S := S1x1) _ hz2, View.ld_unit_zero (S := S128x128) hz2, View.ld_unit_zero (S := S8192x128) hz2, View.ld_unit_zero (S := S1x1) hz2]

end Cert.KernelIdeal.Hand

end
-- ==== Proof.BodyMid.lean ====
/-
  The kernel body at an interior grid point, run once on arbitrary whole buffers: both branches skipped, the two
  accumulators updated from the point's row block and the whole array.
-/
import proofs.«127044_j82729660056292_2_alg».proof.Proof.BodyBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 2000000 in
/-- The body at a point that is neither the first nor the last: with the row block x0, the whole array xf, the
    result cell o and the two accumulators a0, a1 in its five buffers, it runs to the end leaving the inputs and the
    result cell as they were and the accumulators at their updates, the block's row terms and pair terms added. -/
theorem run_mid (c : Dev nD) (i : grid0.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole)
    (hc0 : ¬condFirst i) (hc1 : ¬condLast i)
    (x0 : Vec F S128x128 .f32) (xf : Vec F S8192x128 .f32) (o a0 a1 : Vec F S1x1 .f32) (E : Set ℕ) (K : PUnit → sProp 𝕄) :
    iprop(owns (c : Thread nD τ) arg1 fullShare x0 ∗ owns (c : Thread nD τ) arg2 fullShare xf ∗ owns (c : Thread nD τ) arg3 fullShare o
        ∗ owns (c : Thread nD τ) arg4 fullShare a0 ∗ owns (c : Thread nD τ) arg5 fullShare a1
        ∗ (iprop(owns (c : Thread nD τ) arg1 fullShare x0 ∗ owns (c : Thread nD τ) arg2 fullShare xf ∗ owns (c : Thread nD τ) arg3 fullShare o
            ∗ owns (c : Thread nD τ) arg4 fullShare (k0_pay5 x0 a0)
            ∗ owns (c : Thread nD τ) arg5 fullShare (k0_pay1 (k0_pay8 (BitVec.ofNat 32 (i 0).val) x0 xf (k0_pay6 x0) (k0_pay7 xf) a1))) -∗ K ⟨⟩))
      ⊢ wp frame (wpE (defs₀ (F := F)) Variants.none c none) E (cc0__ptm_loss_kernel i arg1 harg1 arg2 harg2 arg3 harg3 arg4 harg4 arg5 harg5) K := by
  simp only [cc0__ptm_loss_kernel_eq_skeleton]; unfold cc0__ptm_loss_kernel_skel
  simp only [k0_part1_eq_skeleton, k0_part2_eq_skeleton]
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc0 | exact hc1)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    rw [read_store_whole _ _ hz2]
    simp only [View.readAt_eq_ld, hf1, hf4, View.ld_unit_zero (S := S128x128) hz2, View.ld_unit_zero (S := S8192x128) hz2, View.ld_unit_zero (S := S1x1) hz2]
  · iexists _; isplitr; swap; · iexact H5
    ipureintro
    rw [read_store_whole _ _ hz2]
    sl_unfold_run_names
    simp only [View.readAt_eq_ld, hf1, hf2, hf5, View.ld_unit_zero (S := S128x128) hz2, View.ld_unit_zero (S := S8192x128) hz2, View.ld_unit_zero (S := S1x1) hz2]

end Cert.KernelIdeal.Hand

end
-- ==== Proof.BodyLast.lean ====
/-
  The kernel body at the last grid point, run once on arbitrary whole buffers: the accumulators are updated and the
  second branch stores the result cell.
-/
import proofs.«127044_j82729660056292_2_alg».proof.Proof.BodyBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-- The store made last, of w through the whole-shape rectangle at zero offsets, read back through the view, is w. -/
theorem read_store_head {Val : EltTy → Type} [∀ e, Nonempty (Val e)] {sig' : RefSig} {κ : Kind} {sp : Space} {S : Shape} {e : EltTy}
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb w L]

set_option maxHeartbeats 2000000 in
/-- The body at the last point: the two accumulators are updated as at an interior point, then the result cell,
    whatever it held, is set to the first accumulator over the number of rows plus the second over the number of
    pairs; the inputs are left as they were. -/
theorem run_last (c : Dev nD) (i : grid0.Coords) (arg1 : Memref sig .tc .vmem S128x128 .f32) (harg1 : arg1.IsWhole) (arg2 : Memref sig .tc .vmem S8192x128 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole)
    (hc0 : ¬condFirst i) (hc1 : condLast i)
    (x0 : Vec F S128x128 .f32) (xf : Vec F S8192x128 .f32) (a0 a1 : Vec F S1x1 .f32) (E : Set ℕ) (K : PUnit → sProp 𝕄) :
    iprop(owns (c : Thread nD τ) arg1 fullShare x0 ∗ owns (c : Thread nD τ) arg2 fullShare xf ∗ (∃ d, owns (c : Thread nD τ) arg3 fullShare d)
        ∗ owns (c : Thread nD τ) arg4 fullShare a0 ∗ owns (c : Thread nD τ) arg5 fullShare a1
        ∗ (iprop(owns (c : Thread nD τ) arg1 fullShare x0 ∗ owns (c : Thread nD τ) arg2 fullShare xf
            ∗ owns (c : Thread nD τ) arg3 fullShare (k0_pay2 (k0_pay5 x0 a0) (k0_pay1 (k0_pay8 (BitVec.ofNat 32 (i 0).val) x0 xf (k0_pay6 x0) (k0_pay7 xf) a1)))
            ∗ owns (c : Thread nD τ) arg4 fullShare (k0_pay5 x0 a0)
            ∗ owns (c : Thread nD τ) arg5 fullShare (k0_pay1 (k0_pay8 (BitVec.ofNat 32 (i 0).val) x0 xf (k0_pay6 x0) (k0_pay7 xf) a1))) -∗ K ⟨⟩))
      ⊢ wp frame (wpE (defs₀ (F := F)) Variants.none c none) E (cc0__ptm_loss_kernel i arg1 harg1 arg2 harg2 arg3 harg3 arg4 harg4 arg5 harg5) K := by
  simp only [cc0__ptm_loss_kernel_eq_skeleton]; unfold cc0__ptm_loss_kernel_skel
  simp only [k0_part1_eq_skeleton, k0_part2_eq_skeleton]
  unfold owns
  iintro ⟨⟨%f1, %hf1, H1⟩, ⟨%f2, %hf2, H2⟩, ⟨%d3, %f3, -, H3⟩, ⟨%f4, %hf4, H4⟩, ⟨%f5, %hf5, H5⟩, Hk⟩
  obtain rfl := harg1.eq_unread hf1; obtain rfl := harg2.eq_unread hf2
  obtain rfl := harg4.eq_unread hf4; obtain rfl := harg5.eq_unread hf5
  sl_exec (disch := first | exact hc0 | exact hc1)
  sl_step

  iapply Hk
  isplitl [H1]
  · iexists _; isplitr; · ipureintro; exact hf1
    iexact H1
  isplitl [H2]
  · iexists _; isplitr; · ipureintro; exact hf2
    iexact H2
  isplitl [H3]
  · iexists _; isplitr; swap; · iexact H3
    ipureintro
    sl_unfold_run_names
    rw [read_store_head _ _ hz2]
    simp only [View.readAt_eq_ld, hf1, hf2, hf4, hf5, View.readCov_unit_zero (S := S1x1) _ hz2, View.ld_unit_zero (S := S128x128) hz2, View.ld_unit_zero (S := S8192x128) hz2, View.ld_unit_zero (S := S1x1) hz2]
  isplitl [H4]
  · iexists _; isplitr; swap; · iexact H4
    ipureintro
    sl_unfold_run_names
    rw [read_store_head _ _ hz2]
    simp only [View.readAt_eq_ld, hf1, hf4, View.ld_unit_zero (S := S128x128) hz2, View.ld_unit_zero (S := S8192x128) hz2, View.ld_unit_zero (S := S1x1) hz2]
  · iexists _; isplitr; swap; · iexact H5
    ipureintro
    sl_unfold_run_names
    rw [read_store_head _ _ hz2]
    simp only [View.readAt_eq_ld, hf1, hf2, hf5, View.ld_unit_zero (S := S128x128) hz2, View.ld_unit_zero (S := S8192x128) hz2, View.ld_unit_zero (S := S1x1) hz2]

end Cert.KernelIdeal.Hand

end
-- ==== Proof.Obligation.lean ====
/-
  The kernel body meets the pipeline's obligation at every grid point: by cases on the point (first, interior,
  last) the body's run on the point's buffers takes the invariant before the point to the invariant after it.
-/
import proofs.«127044_j82729660056292_2_alg».proof.Proof.FrameData
import proofs.«127044_j82729660056292_2_alg».proof.Proof.BodyFirst
import proofs.«127044_j82729660056292_2_alg».proof.Proof.BodyMid
import proofs.«127044_j82729660056292_2_alg».proof.Proof.BodyLast

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem leaves0 (c : Dev nD) (t : Fin cfg0.N) :
    (dats m 0 c).leavesExact 0 t = owns (c : Thread nD τ) (st0_0 t) fullShare (iblk m c 0 t) := by
  unfold Dat.leavesExact; rw [liveAt0 t, after0]
theorem leaves1 (c : Dev nD) (t : Fin cfg0.N) :
    (dats m 0 c).leavesExact 1 t = owns (c : Thread nD τ) (st0_1 t) fullShare (iblk m c 1 t) := by
  unfold Dat.leavesExact; rw [liveAt1 t, after1]

set_option maxHeartbeats 4000000 in
/-- The body at any point: the inputs' buffers hold the point's row block and the whole array; at the first point
    the accumulators hold anything and are started; afterwards they hold the running sums up to the point before and
    gain this point's terms; at the last point the result is stored from them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) from rfl, Phi_castSucc, leaves0, leaves1]
  have hN : t.val < 64 := lt_of_lt_of_eq t.isLt N_0
  by_cases h0 : t.val = 0
  · have hF : condFirst (grid0.coords t) := (hcondFirst t).mpr h0
    have hL : ¬condLast (grid0.coords t) := fun h => by have := (hcondLast t).mp h; omega
    rw [Dat.leavesExact_idle (dats m 0 c) 2 t (idleAt2 t hL) (noFlush2 t hL)]
    rw [h0]
    rw [show PhiS m c 0 = Pipeline.scopedRest spec0 c from rfl, Phi0_eq]
    rw [show PhiS m c (0 + 1) = iprop(owns (c : Thread nD τ) scM0 fullShare (Acc.acc0 (xArr m c) 0) ∗ owns (c : Thread nD τ) scM1 fullShare (Acc.acc1 (xArr m c) 0)) from rfl]
    iintro ⟨⟨HS0, HS1⟩, Ho, ⟨%d0, H0⟩, ⟨%d1, H1⟩, ⟨%d2, H2⟩⟩
    iapply (run_first c (grid0.coords t) _ _ _ _ _ _ _ _ _ _ hF hL (iblk m c 0 t) (iblk m c 1 t) _ Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    rw [coords0 t, iblk0_eq m c t, iblk1_eq m c t, h0]
    isplitl [HS0 HS1]
    · isplitl [HS0]; · iexact HS0
      iexact HS1
    isplitl [Ho]; · iexact Ho
    isplitl [H0]; · iexact H0
    isplitl [H1]; · iexact H1
    iexists _; iexact H2
  · obtain ⟨n, hn⟩ := Nat.exists_eq_succ_of_ne_zero h0
    have hF : ¬condFirst (grid0.coords t) := fun h => h0 ((hcondFirst t).mp h)
    rw [hn]
    rw [show PhiS m c (n + 1) = iprop(owns (c : Thread nD τ) scM0 fullShare (Acc.acc0 (xArr m c) n) ∗ owns (c : Thread nD τ) scM1 fullShare (Acc.acc1 (xArr m c) n)) from rfl]
    rw [show PhiS m c (n + 1 + 1) = iprop(owns (c : Thread nD τ) scM0 fullShare (Acc.acc0 (xArr m c) (n + 1)) ∗ owns (c : Thread nD τ) scM1 fullShare (Acc.acc1 (xArr m c) (n + 1))) from rfl]
    by_cases h1 : t.val = 63
    · have hL : condLast (grid0.coords t) := (hcondLast t).mpr h1
      rw [show (dats m 0 c).leavesExact 2 t = owns (c : Thread nD τ) (st0_2 t) fullShare ((dats m 0 c).after 2 t) from by
        unfold Dat.leavesExact; rw [liveAt2 t hL], after2]
      iintro ⟨⟨HS0, HS1⟩, Ho, ⟨%d0, H0⟩, ⟨%d1, H1⟩, ⟨%d2, H2⟩⟩
      iapply (run_last c (grid0.coords t) _ _ _ _ _ _ _ _ _ _ hF hL (iblk m c 0 t) (iblk m c 1 t) _ _ Set.univ _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      rw [coords0 t, iblk0_eq m c t, iblk1_eq m c t, hn]
      have hn62 : n + 1 = 63 := by omega
      isplitl [HS0 HS1]
      · isplitl [HS0]; · iexact HS0
        iexact HS1
      isplitl [Ho]; · iexact Ho
      isplitl [H0]; · iexact H0
      isplitl [H1]; · iexact H1
      rw [show Acc.out (xArr m c) = k0_pay2 (Acc.acc0 (xArr m c) (n + 1)) (Acc.acc1 (xArr m c) (n + 1)) from by rw [hn62]; rfl]
      iexact H2
    · have hL : ¬condLast (grid0.coords t) := fun h => h1 ((hcondLast t).mp h)
      rw [Dat.leavesExact_idle (dats m 0 c) 2 t (idleAt2 t hL) (noFlush2 t hL)]
      iintro ⟨⟨HS0, HS1⟩, Ho, ⟨%d0, H0⟩, ⟨%d1, H1⟩, ⟨%d2, H2⟩⟩
      iapply (run_mid c (grid0.coords t) _ _ _ _ _ _ _ _ _ _ hF hL (iblk m c 0 t) (iblk m c 1 t) _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      rw [coords0 t, iblk0_eq m c t, iblk1_eq m c t, hn]
      isplitl [HS0 HS1]
      · isplitl [HS0]; · iexact HS0
        iexact HS1
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.Spec.lean ====
/-
  The number both programs compute, written once over the argument array as a function of the extended reals
  (no program is imported here).

  For an 8192 × 128 array x:
    * the norm of row r shifted by ε:      norm0 x r = √(∑ₗ (x r l + ε)²);
    * the power-law transform, clamped:    pe d = min 1000 (max (−1.5) (1/(d·(d·d)) − 1/(d·d)));
    * the squared distance of rows i, j:   d2 x i j = |x i|² + |x j|² − 2·⟨x i, x j⟩;
    * the pair term, on the strict upper triangle i < j only: pe (√(max (d2 x i j) 0)), and 0 elsewhere;
    * the result: (∑ᵣ pe (norm0 x r)) / 8192 + (∑ᵢ ∑ⱼ pairTerm x i j) / 33550336.
  Every literal is kept as the extended real its f32 pattern denotes.
-/
import Idealize.ShloMosaic.PureOps.Ideal
import Idealize.ShloMosaic.Lib.ValueIdx

noncomputable section

open scoped BigOperators

namespace Cert.Spec

open Idealize.ShloMosaic Idealize.ShloMosaic.ValueIdx

/-- The extended real an f32 pattern denotes. -/
abbrev lit (b : BitVec 32) : EReal := Ideal.ofBits .f32 b

/-- An 8192 × 128 array of extended reals. -/
abbrev Arr : Type := (⟨2, ![8192, 128]⟩ : Shape).Idx → EReal

/-- The clamped power-law transform of a distance: 1/d³ − 1/d², clamped to [−1.5, 1000]. -/
def pe (d : EReal) : EReal :=
  min (lit 0x447A0000#32) (max (lit 0xBFC00000#32)
    (Ideal.div (lit 0x3F800000#32) (d * (d * d)) - Ideal.div (lit 0x3F800000#32) (d * d)))

/-- The norm of row r of x + ε. -/
def norm0 (x : Arr) (r : Fin 8192) : EReal :=
  Ideal.sqrt (∑ l : Fin 128, (x (ix2 r l) + lit 0x358637BD#32) * (x (ix2 r l) + lit 0x358637BD#32))

/-- The squared norm of row r. -/
def sq (x : Arr) (r : Fin 8192) : EReal := ∑ l : Fin 128, x (ix2 r l) * x (ix2 r l)

/-- The inner product of rows i and j. -/
def cross (x : Arr) (i j : Fin 8192) : EReal := ∑ l : Fin 128, x (ix2 i l) * x (ix2 j l)

/-- The squared distance of rows i and j, expanded. -/
def d2 (x : Arr) (i j : Fin 8192) : EReal := sq x i + sq x j - lit 0x40000000#32 * cross x i j

/-- The pair (i, j)'s term: on the strict upper triangle the clamped transform of the distance, elsewhere 0. -/
def pairTerm (x : Arr) (i j : Fin 8192) : EReal :=
  if i.val < j.val then pe (Ideal.sqrt (max (d2 x i j) (lit 0x00000000#32))) else 0

/-- The sum of the rows' terms. -/
def rowTotal (x : Arr) : EReal := ∑ r : Fin 8192, pe (norm0 x r)

/-- The sum of the pairs' terms. -/
def pairTotal (x : Arr) : EReal := ∑ i : Fin 8192, ∑ j : Fin 8192, pairTerm x i j

/-- The loss: the rows' mean plus the pairs' sum over the number of pairs, 8192·8191/2 = 33550336. -/
def total (x : Arr) : EReal :=
  Ideal.div (rowTotal x) (lit 0x46000000#32) + Ideal.div (pairTotal x) (lit 0x4BFFF800#32)

/-- The rows' terms summed over the rows below n. -/
def rowPartial (x : Arr) (n : Nat) : EReal := ∑ i : Fin 8192, if i.val < n then pe (norm0 x i) else 0

/-- The pairs' terms summed over the pairs whose first row is below n. -/
def pairPartial (x : Arr) (n : Nat) : EReal := ∑ i : Fin 8192, if i.val < n then ∑ j : Fin 8192, pairTerm x i j else 0

theorem rowPartial_all (x : Arr) : rowPartial x 8192 = rowTotal x := by
  unfold rowPartial rowTotal
  exact Finset.sum_congr rfl fun i _ => if_pos i.isLt

theorem pairPartial_all (x : Arr) : pairPartial x 8192 = pairTotal x := by
  unfold pairPartial pairTotal
  exact Finset.sum_congr rfl fun i _ => if_pos i.isLt

end Cert.Spec

end
-- ==== Proof.AccColumn.lean ====
/-
  A quantity kept once per row, as a column, and summed over the rows.

  The body keeps one number per row of a block as a vector of n entries, re-laid first as an n × 1 column and then as
  a 1 × n × 1 array, and adds all of them up by a reduction over the last two axes into a one-entry vector which it
  reads back at its one position. Read at an index these are:
    * the column at (r, u) is the vector at r, and the 1 × n × 1 array at (u, r, w) is the column at (r, w);
    * an index of a 1 × n × 1 array is determined by its middle coordinate, so a sum over all its indices is the sum
      over r < n of the entry at (0, r, 0);
    * hence the reduction of a 1 × n × 1 array over its last two axes is, at its one index, ∑ r < n of the entry at
      (0, r, 0), and re-laying the one-entry result and reading position (0, 0, 0) changes nothing.
  For a sum over the lanes of a row (a reduction over axis 1 of an m × n array) the inserted index at row r and
  lane l is (r, l).
-/
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.AccValue

open Idealize.ShloMosaic Idealize.ShloMosaic.ValueIdx

variable {α : Type}

/-- An [n] vector cast to an [n, 1] column reads, at (r, u), the vector at r. -/
theorem shapeCast_a_a1_apply {n : ℕ} (x : (⟨1, ![n]⟩ : Shape).Idx → α)
    (h : (⟨1, ![n]⟩ : Shape).ShapeCasts ⟨2, ![n, 1]⟩) (r : Fin n) (u : Fin 1) :
    shapeCast ⟨2, ![n, 1]⟩ x h (ix2 r u) = x (ix1 r) :=
  shapeCast_apply x h _ _ (by
    have hu : u.val = 0 := by omega
    rw [Shape.rowMajor_val_two, Shape.rowMajor_val_one]
    show r.val = r.val * 1 + u.val
    omega)

/-- An index of a [1, n, 1] array is its middle coordinate. -/
def idxEquiv_1a1 {n : ℕ} : (⟨3, ![1, n, 1]⟩ : Shape).Idx ≃ Fin n where
  toFun i := i 1
  invFun r := ix3 (0 : Fin 1) r (0 : Fin 1)
  left_inv i := by
    funext a
    match a with
    | ⟨0, _⟩ =>
      refine Fin.ext ?_
      have h0 : (i 0).val < 1 := (i 0).isLt
      show 0 = (i 0).val
      omega
    | ⟨1, _⟩ => rfl
    | ⟨2, _⟩ =>
      refine Fin.ext ?_
      have h2 : (i 2).val < 1 := (i 2).isLt
      show 0 = (i 2).val
      omega
  right_inv _ := rfl

/-- A sum over every index of a [1, n, 1] array is the sum over the middle coordinate. -/
theorem sum_idx_1a1 {M : Type*} [AddCommMonoid M] {n : ℕ} (f : (⟨3, ![1, n, 1]⟩ : Shape).Idx → M) :
    ∑ i, f i = ∑ r : Fin n, f (ix3 (0 : Fin 1) r (0 : Fin 1)) := by
  rw [← Equiv.sum_comp (idxEquiv_1a1 (n := n)).symm f]
  rfl

/-- The sum of a [1, n, 1] array over its last two axes, at the one index of the result: the n entries added up. -/
theorem multiReduction_add_1a1 {n : ℕ} (src : FVec Ideal ⟨3, ![1, n, 1]⟩ .f32) (acc : BitVec 32)
    (h : (⟨3, ![1, n, 1]⟩ : Shape).Reduces [1, 2] ⟨1, ![1]⟩) (hφ : FKind.Formats .f32)
    (hacc : acc = FKind.add.neutral .f32 hφ) (j : (⟨1, ![1]⟩ : Shape).Idx) :
    multiReduction .add [1, 2] ⟨1, ![1]⟩ src acc h hφ hacc j = ∑ r : Fin n, src (ix3 (0 : Fin 1) r (0 : Fin 1)) :=
  (Ideal.multiReduction_add_total src acc h (fun b => by match b with | ⟨0, _⟩ => rfl) hφ hacc j).trans
    (sum_idx_1a1 src)

/-- The same as a function: the one-entry result is constant. -/
theorem multiReduction_add_1a1_fun {n : ℕ} (src : FVec Ideal ⟨3, ![1, n, 1]⟩ .f32) (acc : BitVec 32)
    (h : (⟨3, ![1, n, 1]⟩ : Shape).Reduces [1, 2] ⟨1, ![1]⟩) (hφ : FKind.Formats .f32)
    (hacc : acc = FKind.add.neutral .f32 hφ) :
    multiReduction .add [1, 2] ⟨1, ![1]⟩ src acc h hφ hacc
      = fun _ => ∑ r : Fin n, src (ix3 (0 : Fin 1) r (0 : Fin 1)) :=
  funext fun j => multiReduction_add_1a1 src acc h hφ hacc j

/-- The whole tail of a per-row column: laid as [1, n, 1], summed over the last two axes into one entry, that entry
    re-laid as [1, 1, 1] and read at (0, 0, 0) — the sum of the column's n entries. -/
theorem column_total {n : ℕ} (col : FVec Ideal ⟨2, ![n, 1]⟩ .f32) (acc : BitVec 32)
    (hc : (⟨2, ![n, 1]⟩ : Shape).ShapeCasts ⟨3, ![1, n, 1]⟩)
    (h : (⟨3, ![1, n, 1]⟩ : Shape).Reduces [1, 2] ⟨1, ![1]⟩) (hφ : FKind.Formats .f32)
    (hacc : acc = FKind.add.neutral .f32 hφ)
    (hc' : (⟨1, ![1]⟩ : Shape).ShapeCasts ⟨3, ![1, 1, 1]⟩)
    (hp : ∀ a, (![0, 0, 0] : Fin 3 → Nat) a < (⟨3, ![1, 1, 1]⟩ : Shape).size a) :
    extractAt ![0, 0, 0]
        (shapeCast ⟨3, ![1, 1, 1]⟩
          (multiReduction .add [1, 2] ⟨1, ![1]⟩ (shapeCast ⟨3, ![1, n, 1]⟩ col hc) acc h hφ hacc) hc') hp
      = ∑ r : Fin n, col (ix2 r (0 : Fin 1)) := by
  rw [multiReduction_add_1a1_fun]
  show (∑ r : Fin n, shapeCast ⟨3, ![1, n, 1]⟩ col hc (ix3 (0 : Fin 1) r (0 : Fin 1))) = _
  exact Finset.sum_congr rfl fun r _ => shapeCast_ab_1ab_apply col hc (0 : Fin 1) r (0 : Fin 1)

/-- The index inserted by a sum over the lanes (axis 1) of an [m, n] array, at row r and lane l, is (r, l). -/
theorem lift_axis1_ix2 {m n : ℕ} (h : (⟨2, ![m, n]⟩ : Shape).Reduces [1] ⟨1, ![m]⟩) (r : Fin m) (l : Fin n) :
    h.lift (ix1 r) l = ix2 r l := by
  funext a
  match a with
  | ⟨0, _⟩ => rfl
  | ⟨1, _⟩ => rfl

/-- A sum over the lanes of an [m, n] array, at row r: ∑ l < n of the entry at (r, l). -/
theorem multiReduction_add_lanes {m n : ℕ} (src : FVec Ideal ⟨2, ![m, n]⟩ .f32) (acc : BitVec 32)
    (h : (⟨2, ![m, n]⟩ : Shape).Reduces [1] ⟨1, ![m]⟩) (hφ : FKind.Formats .f32)
    (hacc : acc = FKind.add.neutral .f32 hφ) (r : Fin m) :
    multiReduction .add [1] ⟨1, ![m]⟩ src acc h hφ hacc (ix1 r) = ∑ l : Fin n, src (ix2 r l) :=
  (Ideal.multiReduction_add_single src acc h hφ hacc (ix1 r)).trans
    (Finset.sum_congr rfl fun l _ => congrArg src (lift_axis1_ix2 h r l))

end Cert.KernelIdeal.AccValue

end
-- ==== Proof.AccRowTerm.lean ====
/-
  What one grid point adds to the first running sum.

  The body takes its 128 × 128 row block, adds ε to every entry and squares, sums each row's 128 squares over the
  lanes, takes the square root (the row's shifted norm d), applies the clamped power-law transform
  min 1000 (max (−1.5) (1/(d·(d·d)) − 1/(d·d))) to each of the 128 norms held as a column, adds the 128 results up,
  and adds that total to the one cell it keeps. Read over the extended reals, where every operation is exact and acts
  entry by entry, the new cell is therefore

      old cell + ∑ r < 128, pe (√ (∑ l < 128, (block (r, l) + ε)²)),

  and when the block is rows [128·t, 128·t + 128) of the whole array (t < 64) the r-th summand is the specification's
  term pe (norm0 x (128·t + r)) of the array's row 128·t + r.
-/
import proofs.«127044_j82729660056292_2_alg».proof.Proof.Gen.KernelIdeal.Skeleton
import proofs.«127044_j82729660056292_2_alg».proof.Proof.Spec
import proofs.«127044_j82729660056292_2_alg».proof.Proof.Acc
import proofs.«127044_j82729660056292_2_alg».proof.Proof.AccColumn

noncomputable section

open scoped BigOperators

namespace Cert.KernelIdeal.AccValue

open Idealize.ShloMosaic Idealize.ShloMosaic.ValueIdx Cert.KernelIdeal Cert.KernelIdeal.Gen Cert.Spec

/-- The body's transform of an array of distances, entry by entry, is the specification's clamped power law. -/
theorem pe_chain {s : Shape} (d : FVec Ideal s .f32) (j : s.Idx) :
    minimumf (broadcast s (Scalar.ofBits (F := Ideal) .f32 0x447A0000#32))
      (maximumf (broadcast s (Scalar.ofBits (F := Ideal) .f32 0xBFC00000#32))
        (subf (divf (broadcast s (Scalar.ofBits (F := Ideal) .f32 0x3F800000#32)) (mulf d (mulf d d)))
          (divf (broadcast s (Scalar.ofBits (F := Ideal) .f32 0x3F800000#32)) (mulf d d)))) j
      = pe (d j) := rfl

/-- The shifted norm of row r of a 128 × 128 block: √ (∑ₗ (block (r, l) + ε)²). -/
def blockNorm (blk : Vec Ideal S128x128 .f32) (r : Fin 128) : EReal :=
  Ideal.sqrt (∑ l : Fin 128, (blk (ix2 r l) + lit 0x358637BD#32) * (blk (ix2 r l) + lit 0x358637BD#32))

/-- One point's new first cell: the old cell plus the transformed norms of the block's 128 rows. -/
theorem pay5_eq (blk : Vec Ideal S128x128 .f32) (a : EReal) :
    k0_pay5 (F := Ideal) blk (fun _ => a) = fun _ => a + ∑ r : Fin 128, pe (blockNorm blk r) := by
  unfold k0_pay5
  funext i
  dsimp only
  refine (congrFun (shapeCast_self _ _) i).trans ?_
  refine (addf_apply _ _ i).trans ?_
  refine congrArg (fun z => a + z) ?_
  refine (column_total _ _ _ _ _ _ _ _).trans ?_
  refine Finset.sum_congr rfl fun r _ => ?_
  refine (pe_chain _ _).trans ?_
  refine congrArg pe ?_
  unfold blockNorm
  refine congrArg Ideal.sqrt ?_
  refine (shapeCast_a_a1_apply _ _ r (0 : Fin 1)).trans ?_
  refine (multiReduction_add_lanes _ _ _ _ _ r).trans ?_
  exact Finset.sum_congr rfl fun l _ => rfl

end Cert.KernelIdeal.AccValue

end
-- ==== Proof.AccSums.lean ====
/-
  Regrouping a running sum over the rows of an 8192-row array by blocks of 128 rows.

  For a family f of extended reals indexed by the 8192 rows, write P n for the sum of f over the rows below n
  (a sum over all rows in which a row at or above n contributes 0). Then P 0 = 0, and for a block number t < 64

      P ((t + 1) · 128) = P (t · 128) + ∑ r < 128, f (t · 128 + r):

  a row below (t + 1) · 128 is either below t · 128 or lies in the block [t · 128, (t + 1) · 128), never both, and the
  rows of that block are exactly the rows t · 128 + r with r < 128, each met once. Only the commutative-monoid
  structure of the extended reals under addition is used. The two running sums of the specification (the rows'
  terms, and the pairs' terms grouped by their first row) are instances.
-/
import proofs.«127044_j82729660056292_2_alg».proof.Proof.Spec

noncomputable section

open scoped BigOperators

namespace Cert.KernelIdeal.AccValue

open Cert.Spec

/-- The running sum over no rows is 0. -/
theorem partial_zero (f : Fin 8192 → EReal) :
    (∑ i : Fin 8192, if i.val < 0 then f i else 0) = 0 :=
  Finset.sum_eq_zero fun i _ => if_neg (Nat.not_lt_zero i.val)

/-- The same with the bound spelt as block number 0 times the block height. -/
theorem partial_zero_mul (f : Fin 8192 → EReal) :
    (∑ i : Fin 8192, if i.val < 0 * 128 then f i else 0) = 0 :=
  Finset.sum_eq_zero fun i _ => if_neg (by omega)

/-- The rows of block t are the rows t · 128 + r, r < 128, each once: the sum of f over the block, written as a sum
    over all rows with an indicator, is the sum over r. -/
theorem block_sum (f : Fin 8192 → EReal) (t : Nat) (ht : t < 64) :
    (∑ i : Fin 8192, if t * 128 ≤ i.val ∧ i.val < (t + 1) * 128 then f i else 0) =
      ∑ r : Fin 128, f ⟨t * 128 + r.val, by omega⟩ := by
  let e : Fin 128 ↪ Fin 8192 :=
    ⟨fun r => ⟨t * 128 + r.val, by omega⟩, fun a b h => Fin.ext (by
      have h' : t * 128 + a.val = t * 128 + b.val := congrArg Fin.val h
      omega)⟩
  have hset : (Finset.univ.filter fun i : Fin 8192 => t * 128 ≤ i.val ∧ i.val < (t + 1) * 128) =
      Finset.univ.map e := by
    ext i
    simp only [Finset.mem_filter, Finset.mem_univ, true_and, Finset.mem_map]
    constructor
    · rintro ⟨h1, h2⟩
      exact ⟨⟨i.val - t * 128, by omega⟩, Fin.ext (by
        show t * 128 + (i.val - t * 128) = i.val
        omega)⟩
    · rintro ⟨r, rfl⟩
      show t * 128 ≤ t * 128 + r.val ∧ t * 128 + r.val < (t + 1) * 128
      omega
  rw [← Finset.sum_filter, hset, Finset.sum_map]
  rfl

/-- One block more: the running sum up to the end of block t is the running sum up to its start plus the block's
    128 terms. -/
theorem partial_step (f : Fin 8192 → EReal) (t : Nat) (ht : t < 64) :
    (∑ i : Fin 8192, if i.val < (t + 1) * 128 then f i else 0) =
      (∑ i : Fin 8192, if i.val < t * 128 then f i else 0) +
        ∑ r : Fin 128, f ⟨t * 128 + r.val, by omega⟩ := by
  have hsplit : ∀ i : Fin 8192, (if i.val < (t + 1) * 128 then f i else 0) =
      (if i.val < t * 128 then f i else 0) +
        (if t * 128 ≤ i.val ∧ i.val < (t + 1) * 128 then f i else 0) := by
    intro i
    by_cases h1 : i.val < t * 128
    · have h2 : i.val < (t + 1) * 128 := by omega
      have h3 : ¬ (t * 128 ≤ i.val ∧ i.val < (t + 1) * 128) := by omega
      rw [if_pos h1, if_pos h2, if_neg h3, add_zero]
    · by_cases h2 : i.val < (t + 1) * 128
      · have h3 : t * 128 ≤ i.val ∧ i.val < (t + 1) * 128 := ⟨by omega, h2⟩
        rw [if_neg h1, if_pos h2, if_pos h3, zero_add]
      · have h3 : ¬ (t * 128 ≤ i.val ∧ i.val < (t + 1) * 128) := by omega
        rw [if_neg h1, if_neg h2, if_neg h3, add_zero]
  rw [Finset.sum_congr rfl fun i _ => hsplit i, Finset.sum_add_distrib, block_sum f t ht]

/-- The rows' running sum gains block t's 128 row terms. -/
theorem rowPartial_step (x : Arr) (t : Nat) (ht : t < 64) :
    rowPartial x ((t + 1) * 128) =
      rowPartial x (t * 128) + ∑ r : Fin 128, pe (norm0 x ⟨t * 128 + r.val, by omega⟩) :=
  partial_step (fun i => pe (norm0 x i)) t ht

/-- The pairs' running sum gains the terms of the pairs whose first row lies in block t. -/
theorem pairPartial_step (x : Arr) (t : Nat) (ht : t < 64) :
    pairPartial x ((t + 1) * 128) =
      pairPartial x (t * 128) +
        ∑ r : Fin 128, ∑ j : Fin 8192, pairTerm x ⟨t * 128 + r.val, by omega⟩ j :=
  partial_step (fun i => ∑ j : Fin 8192, pairTerm x i j) t ht

/-- Before the first block both running sums are 0. -/
theorem rowPartial_zero (x : Arr) : rowPartial x (0 * 128) = 0 :=
  partial_zero_mul fun i => pe (norm0 x i)

theorem pairPartial_zero (x : Arr) : pairPartial x (0 * 128) = 0 :=
  partial_zero_mul fun i => ∑ j : Fin 8192, pairTerm x i j

end Cert.KernelIdeal.AccValue

end
-- ==== Proof.AccRows.lean ====
/-
  The first running sum after each grid point.

  Point t (t < 64) reads rows [128·t, 128·t + 128) of the 8192 × 128 array: entry (r, l) of its block is entry
  (128·t + r, l) of the array, so the shifted norm of the block's row r is the shifted norm of the array's row
  128·t + r. Point 0 starts from a cell holding the zero pattern, which denotes 0. Each point adds the transformed
  norms of its 128 rows to the cell. By induction on t, with the block-by-block regrouping of a running sum over the
  rows, the cell after point t holds the sum of pe (norm0 x i) over the rows i < (t + 1) · 128.
-/
import proofs.«127044_j82729660056292_2_alg».proof.Proof.AccRowTerm
import proofs.«127044_j82729660056292_2_alg».proof.Proof.AccSums

noncomputable section

open scoped BigOperators

namespace Cert.KernelIdeal.AccValue

open Idealize.ShloMosaic Idealize.ShloMosaic.ValueIdx Cert.KernelIdeal Cert.KernelIdeal.Gen Cert.Spec
open Cert.KernelIdeal.Acc

/-- Entry (r, l) of point t's row block is entry (128·t + r, l) of the array. -/
theorem rowBlock_apply (x : Vec Ideal S8192x128 .f32) (t : Nat) (ht : t < 64) (r : Fin 128) (l : Fin 128) :
    rowBlock x t (ix2 r l) = x (ix2 (⟨t * 128 + r.val, by omega⟩ : Fin 8192) l) := by
  have h : (t * 128 + r.val) % 8192 = t * 128 + r.val := Nat.mod_eq_of_lt (by omega)
  unfold rowBlock
  refine congrArg x ?_
  funext a
  match a with
  | ⟨0, _⟩ => exact Fin.ext h
  | ⟨1, _⟩ => rfl

/-- The shifted norm of the block's row r is that of the array's row 128·t + r. -/
theorem blockNorm_rowBlock (x : Vec Ideal S8192x128 .f32) (t : Nat) (ht : t < 64) (r : Fin 128) :
    blockNorm (rowBlock x t) r = norm0 x ⟨t * 128 + r.val, by omega⟩ := by
  unfold blockNorm norm0
  refine congrArg Ideal.sqrt (Finset.sum_congr rfl fun l _ => ?_)
  rw [rowBlock_apply x t ht r l]

/-- The cell point 0 starts from holds 0. -/
theorem pay3_eq : k0_pay3 (F := Ideal) = fun _ => (0 : EReal) := by
  unfold k0_pay3
  dsimp only
  refine (shapeCast_self _ _).trans ?_
  funext i
  exact Ideal.ofBits_zero_f32

/-- One point, on the array: the cell gains the terms of rows 128·t … 128·t + 127. -/
theorem pay5_rowBlock (x : Vec Ideal S8192x128 .f32) (t : Nat) (ht : t < 64) (a : EReal) :
    k0_pay5 (F := Ideal) (rowBlock x t) (fun _ => a)
      = fun _ => a + ∑ r : Fin 128, pe (norm0 x ⟨t * 128 + r.val, by omega⟩) := by
  refine (pay5_eq (rowBlock x t) a).trans ?_
  funext _
  exact congrArg (fun z => a + z) (Finset.sum_congr rfl fun r _ => congrArg pe (blockNorm_rowBlock x t ht r))

/-- After point t the first cell holds the rows' terms summed over the rows below (t + 1) · 128. -/
theorem acc0_eq (x : Vec Ideal S8192x128 .f32) (t : Nat) (ht : t < 64) :
    Acc.acc0 (F := Ideal) x t = fun _ => rowPartial x ((t + 1) * 128) := by
  induction t with
  | zero =>
    show k0_pay5 (rowBlock x 0) (k0_pay3 (F := Ideal)) = _
    rw [pay3_eq]
    refine (pay5_rowBlock x 0 ht 0).trans ?_
    funext _
    rw [rowPartial_step x 0 ht, rowPartial_zero]
  | succ t ih =>
    show k0_pay5 (rowBlock x (t + 1)) (Acc.acc0 x t) = _
    rw [ih (by omega)]
    refine (pay5_rowBlock x (t + 1) ht _).trans ?_
    funext _
    rw [rowPartial_step x (t + 1) ht]

end Cert.KernelIdeal.AccValue

end
-- ==== Proof.AccTotal.lean ====
/-
  The result the last grid point stores.

  After point 63 the first cell holds the rows' terms summed over all rows below 64 · 128 = 8192, that is over every
  row, and — granted the second cell holds the pairs' terms summed over the pairs whose first row is below 8192, that
  is over every pair — the stored result, first cell / 8192 + second cell / 33550336 with both divisions exact on the
  extended reals, is the specification's total. The two divisors are kept as the extended reals their patterns denote,
  the same words on both sides.
-/
import proofs.«127044_j82729660056292_2_alg».proof.Proof.AccRows

noncomputable section

open scoped BigOperators

namespace Cert.KernelIdeal.AccValue

open Idealize.ShloMosaic Idealize.ShloMosaic.ValueIdx Cert.KernelIdeal Cert.KernelIdeal.Gen Cert.Spec
open Cert.KernelIdeal.Acc

/-- The stored result of two cells holding a and b: a / 8192 + b / 33550336. -/
theorem pay2_eq (a b : EReal) :
    k0_pay2 (F := Ideal) (fun _ => a) (fun _ => b)
      = fun _ => Ideal.div a (lit 0x46000000#32) + Ideal.div b (lit 0x4BFFF800#32) := rfl

/-- If the second cell ends as the pairs' running sum over all 64 blocks, the stored result is the total. -/
theorem out_eq_of (x : Vec Ideal S8192x128 .f32)
    (h1 : Acc.acc1 (F := Ideal) x 63 = fun _ => pairPartial x (64 * 128)) :
    Acc.out (F := Ideal) x = fun _ => total x := by
  have e0 : (63 + 1) * 128 = 8192 := rfl
  have e1 : 64 * 128 = 8192 := rfl
  have h0 : Acc.acc0 (F := Ideal) x 63 = fun _ => rowTotal x := by
    rw [acc0_eq x 63 (by omega), e0, rowPartial_all]
  have h1' : Acc.acc1 (F := Ideal) x 63 = fun _ => pairTotal x := by
    rw [h1, e1, pairPartial_all]
  unfold Acc.out
  rw [h0, h1']
  exact pay2_eq _ _

end Cert.KernelIdeal.AccValue

end
-- ==== Proof.PairLayout.lean ====
/-
  Three readings of an array at an index given by its coordinates, for the column shapes a row sum with a kept axis
  passes through.

  * A vector of length a viewed as an a × 1 column has, at (i, 0), the vector's entry i: both sit at row-major
    position i.
  * An a × 1 column repeated along b columns has, at (p, c), the column's entry p: the unit axis is read at 0, the
    other axis at the same coordinate.
  * The sum of an a × b array of extended reals along its second axis has, at r, the value ∑ₖ src (r, k): the indices
    that drop to r are exactly the (r, k), k < b, each once.
-/
import Idealize.ShloMosaic.Lib.ValueIdx
import Idealize.ShloMosaic.Lib.Pipeline.Value
import Idealize.ShloMosaic.PureOps.Ideal.Laws

noncomputable section

open scoped BigOperators

namespace Cert.KernelIdeal.AccValue.Pair

open Idealize.ShloMosaic Idealize.ShloMosaic.ValueIdx

variable {α : Type}

/-- A vector [a] cast to a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along axis 1, read at r, is the sum over k of the array at (r, k). The accumulator's
    word is the zero pattern, the sum's neutral element. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction (F := Ideal) .add [1] ⟨1, ![a]⟩ src 0x00000000#32 h hφ hacc (ix1 r) = ∑ k : Fin b, src (ix2 r k) := by
  refine (Ideal.multiReduction_add_single src _ h hφ hacc (ix1 r)).trans ?_
  refine Finset.sum_congr rfl fun k _ => congrArg src ?_
  funext d
  match d with
  | ⟨0, _⟩ => rfl
  | ⟨1, _⟩ => rfl

end Cert.KernelIdeal.AccValue.Pair

end
-- ==== Proof.PairD2.lean ====
/-
  The squared distance of a block row and an array row, as the kernel's body computes it.

  From a 128 × 128 block blk, the 8192 × 128 array x, a 128 × 1 column sqb and a vector sqx of length 8192 the body
  forms the 128 × 8192 array

      D (r, j) = (sqb (r, 0) + sqx j) − 2 · ∑ₗ blk (r, l) · x (j, l):

  the column is repeated along the columns, the vector is turned into a 1 × 8192 row (a column, transposed) and repeated
  down the rows, and the product of blk with the transpose of x into a zero accumulator has at (r, j) the sum over the
  one contracted axis of blk (r, l) · xᵀ (l, j). The column and the vector it is given are the rows' square norms:
  the block's, ∑ₗ blk (r, l)², and the array's, ∑ₗ x (j, l)².
-/
import proofs.«127044_j82729660056292_2_alg».proof.Proof.Gen.KernelIdeal.Skeleton
import proofs.«127044_j82729660056292_2_alg».proof.Proof.PairLayout
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.AccValue.Pair

open Idealize.ShloMosaic Idealize.ShloMosaic.ValueIdx Cert.KernelIdeal Cert.KernelIdeal.Gen

/-- The product of a 128 × 128 block with a 128 × 8192 array into a zero accumulator, at (r, j): the sum over the
    contracted axis of the products of the block's row r and the array's column j. -/
theorem cross_apply (blk : FVec Ideal S128x128 .f32) (y : FVec Ideal S128x8192 .f32) (r : Fin 128) (j : Fin 8192) :
    matmul (F := Ideal) dot_S128x128_S128x8192_S128x8192_1_0_0_1_n_n none blk y (constant (F := Ideal) S128x8192 .f32 0x00000000#32) (ix2 r j)
      = ∑ l : Fin 128, blk (ix2 r l) * y (ix2 l j) := by
  simp only [matmul]
  rw [Ideal.matmul_constant_zero_apply, ← Equiv.sum_comp (contrEquiv1 dot_S128x128_S128x8192_S128x8192_1_0_0_1_n_n 128 rfl rfl).symm]
  refine Finset.sum_congr rfl fun k _ => ?_
  have hk := contrEquiv1_symm_val dot_S128x128_S128x8192_S128x8192_1_0_0_1_n_n 128 rfl rfl k
  have el : dot_S128x128_S128x8192_S128x8192_1_0_0_1_n_n.lhsIdx (ix2 r j) ((contrEquiv1 dot_S128x128_S128x8192_S128x8192_1_0_0_1_n_n 128 rfl rfl).symm k) = ix2 r k :=
    funext fun a => Fin.ext (by
      match a with
      | ⟨0, _⟩ =>
        show (dot_S128x128_S128x8192_S128x8192_1_0_0_1_n_n.lhsIdx (ix2 r j) _ 0).val = r.val
        unfold DotDims.lhsIdx
        rw [dif_neg (show ¬(0 : Fin S128x128.rank) ∈ dot_S128x128_S128x8192_S128x8192_1_0_0_1_n_n.lhsBatch by decide), dif_pos (show (0 : Fin S128x128.rank) ∈ dot_S128x128_S128x8192_S128x8192_1_0_0_1_n_n.lhsNonContracting by decide)]
        rfl
      | ⟨1, _⟩ => exact (dot_S128x128_S128x8192_S128x8192_1_0_0_1_n_n.lhsIdx_val_of_single rfl (ix2 r j) _).trans hk)
  have er : dot_S128x128_S128x8192_S128x8192_1_0_0_1_n_n.rhsIdx (ix2 r j) ((contrEquiv1 dot_S128x128_S128x8192_S128x8192_1_0_0_1_n_n 128 rfl rfl).symm k) = ix2 k j :=
    funext fun a => Fin.ext (by
      match a with
      | ⟨0, _⟩ => exact (dot_S128x128_S128x8192_S128x8192_1_0_0_1_n_n.rhsIdx_val_of_single rfl (ix2 r j) _).trans hk
      | ⟨1, _⟩ =>
        show (dot_S128x128_S128x8192_S128x8192_1_0_0_1_n_n.rhsIdx (ix2 r j) _ 1).val = j.val
        unfold DotDims.rhsIdx
        rw [dif_neg (show ¬(1 : Fin S128x8192.rank) ∈ dot_S128x128_S128x8192_S128x8192_1_0_0_1_n_n.rhsBatch by decide), dif_pos (show (1 : Fin S128x8192.rank) ∈ dot_S128x128_S128x8192_S128x8192_1_0_0_1_n_n.rhsNonContracting by decide)]
        rfl)
  rw [el, er]

/-- The body's values %38 to %47: the array of squared distances, from the block, the array and the two vectors of
    square norms. -/
def d2Of (blk : FVec Ideal S128x128 .f32) (x : FVec Ideal S8192x128 .f32) (sqb : FVec Ideal S128x1 .f32) (sqx : FVec Ideal S8192 .f32) :
    FVec Ideal S128x8192 .f32 :=
  subf (addf (broadcastTo S128x8192 sqb broadcasts_S128x1_S128x8192)
             (broadcastTo S128x8192 (transpose S1x8192 [1, 0] (shapeCast S8192x1 sqx shapeCasts_S8192_S8192x1) transposes_S8192x1_p1_0_S1x8192) broadcasts_S1x8192_S128x8192))
       (mulf (broadcast S128x8192 (Scalar.ofBits (F := Ideal) .f32 0x40000000#32))
             (matmul dot_S128x128_S128x8192_S128x8192_1_0_0_1_n_n none blk (transpose S128x8192 [1, 0] x transposes_S8192x128_p1_0_S128x8192) (constant (F := Ideal) S128x8192 .f32 0x00000000#32)))

/-- The squared distances read at (r, j). -/
theorem d2Of_apply (blk : FVec Ideal S128x128 .f32) (x : FVec Ideal S8192x128 .f32) (sqb : FVec Ideal S128x1 .f32) (sqx : FVec Ideal S8192 .f32)
    (r : Fin 128) (j : Fin 8192) :
    d2Of blk x sqb sqx (ix2 r j)
      = (sqb (ix2 r (0 : Fin 1)) + sqx (ix1 j)) - Ideal.ofBits .f32 0x40000000#32 * ∑ l : Fin 128, blk (ix2 r l) * x (ix2 j l) := by
  have e1 : broadcastTo S128x8192 sqb broadcasts_S128x1_S128x8192 (ix2 r j) = sqb (ix2 r (0 : Fin 1)) :=
    broadcastTo_a1_ab_apply sqb _ r j
  have e2 : broadcastTo S128x8192 (transpose S1x8192 [1, 0] (shapeCast S8192x1 sqx shapeCasts_S8192_S8192x1) transposes_S8192x1_p1_0_S1x8192) broadcasts_S1x8192_S128x8192 (ix2 r j)
      = sqx (ix1 j) :=
    (broadcastTo_1b_ab_apply _ _ r j).trans ((transpose_ix2_apply _ _ (0 : Fin 1) j).trans (shapeCast_a_a1_apply sqx _ j (0 : Fin 1)))
  have e3 : matmul (F := Ideal) dot_S128x128_S128x8192_S128x8192_1_0_0_1_n_n none blk (transpose S128x8192 [1, 0] x transposes_S8192x128_p1_0_S128x8192) (constant (F := Ideal) S128x8192 .f32 0x00000000#32) (ix2 r j)
      = ∑ l : Fin 128, blk (ix2 r l) * x (ix2 j l) :=
    (cross_apply blk _ r j).trans (Finset.sum_congr rfl fun l _ => congrArg (blk (ix2 r l) * ·) (transpose_ix2_apply x _ l j))
  exact congrArg₂ (· - ·) (congrArg₂ (· + ·) e1 e2) (congrArg (Ideal.ofBits .f32 0x40000000#32 * ·) e3)

/-- The block's square norms: at (r, 0) the sum of the squares of the block's row r. -/
theorem pay6_apply (blk : FVec Ideal S128x128 .f32) (r : Fin 128) (u : Fin 1) :
    k0_pay6 (F := Ideal) blk (ix2 r u) = ∑ l : Fin 128, blk (ix2 r l) * blk (ix2 r l) := by
  unfold k0_pay6
  exact (shapeCast_a_a1_apply _ _ r u).trans (rowSum_apply (mulf blk blk) _ _ _ r)

/-- The array's square norms: at j the sum of the squares of the array's row j. -/
theorem pay7_apply (x : FVec Ideal S8192x128 .f32) (j : Fin 8192) :
    k0_pay7 (F := Ideal) x (ix1 j) = ∑ l : Fin 128, x (ix2 j l) * x (ix2 j l) := by
  unfold k0_pay7
  exact rowSum_apply (mulf x x) _ _ _ j

end Cert.KernelIdeal.AccValue.Pair

end
-- ==== Proof.PairMask.lean ====
/-
  The mask of the pair terms, read at an index.

  The body numbers the block's rows by the word arg0 · 128 + r (a 128 × 1 column: the grid position times the block
  height, plus the row's number within the block) and the columns by the word j (a 1 × 8192 row), repeats the column
  along the columns and the row down the rows, and compares the two 128 × 8192 arrays in the signed order. At (r, j)
  the mask's bit is therefore the signed comparison of the word arg0 · 128 + r with the word j.
-/
import proofs.«127044_j82729660056292_2_alg».proof.Proof.Gen.KernelIdeal.Skeleton
import proofs.«127044_j82729660056292_2_alg».proof.Proof.PairLayout
import Idealize.ShloMosaic.Lib.ValueIdx
import Idealize.ShloMosaic.Lib.Pipeline.Value
import Idealize.ShloMosaic.Lib.ValueLayout

noncomputable section

namespace Cert.KernelIdeal.AccValue.Pair

open Idealize.ShloMosaic Idealize.ShloMosaic.ValueIdx Cert.KernelIdeal Cert.KernelIdeal.Gen

/-- The body's values %48 to %55: the 128 × 8192 array of the mask's bits, from the grid position's word. -/
def maskOf (arg0 : BitVec 32) : IVec S128x8192 1 :=
  cmpi .slt
    (broadcastTo S128x8192 (addi (broadcast S128x1 (Scalar.muli arg0 128#32)) (iota .tc S128x1 32 [0] iota_S128x1_d0_w32)) broadcasts_S128x1_S128x8192)
    (broadcastTo S128x8192 (iota .tc S1x8192 32 [1] iota_S1x8192_d1_w32) broadcasts_S1x8192_S128x8192)

/-- The mask's bit at (r, j): the row's word against the column's word. -/
theorem maskOf_apply (arg0 : BitVec 32) (r : Fin 128) (j : Fin 8192) :
    maskOf arg0 (ix2 r j)
      = IntOp.cmpi .slt (IntOp.addi (Scalar.muli arg0 128#32) (BitVec.ofNat 32 r.val)) (BitVec.ofNat 32 j.val) := by
  have e1 : broadcastTo S128x8192 (addi (broadcast S128x1 (Scalar.muli arg0 128#32)) (iota .tc S128x1 32 [0] iota_S128x1_d0_w32)) broadcasts_S128x1_S128x8192 (ix2 r j)
      = IntOp.addi (Scalar.muli arg0 128#32) (BitVec.ofNat 32 r.val) :=
    (broadcastTo_a1_ab_apply _ _ r j).trans
      (congrArg (IntOp.addi (Scalar.muli arg0 128#32)) (iota_single_apply .tc S128x1 32 0 iota_S128x1_d0_w32 (ix2 r (0 : Fin 1))))
  have e2 : broadcastTo S128x8192 (iota .tc S1x8192 32 [1] iota_S1x8192_d1_w32) broadcasts_S1x8192_S128x8192 (ix2 r j) = BitVec.ofNat 32 j.val :=
    (broadcastTo_1b_ab_apply _ _ r j).trans (iota_single_apply .tc S1x8192 32 1 iota_S1x8192_d1_w32 (ix2 (0 : Fin 1) j))
  exact congrArg₂ (IntOp.cmpi .slt) e1 e2

end Cert.KernelIdeal.AccValue.Pair

end
-- ==== Proof.PairIndex.lean ====
/-
  The mask of the pair terms, as arithmetic on 32-bit words.

  At grid point t < 64 the kernel numbers the rows of its block t·128 + r (r < 128) and the columns j < 8192, all as
  32-bit words, and keeps the pair (row, column) when the row's word is below the column's word in the SIGNED order.
  Every number involved is below 8192 < 2³¹, so no product or sum wraps, each word's signed value is the number
  itself, and the signed comparison is the comparison t·128 + r < j of natural numbers. Stated as the one-bit word the
  comparison yields: 1 when t·128 + r < j, and 0 otherwise.
-/
import Idealize.ShloMosaic.Lib.ValueIdx

noncomputable section

namespace Cert.KernelIdeal.AccValue.Pair

open Idealize.ShloMosaic

/-- For t < 64 and r < 128 the word t·128 + r, computed on 32-bit words, is the number t·128 + r: nothing wraps. -/
theorem rowWord_toNat (t r : Nat) (ht : t < 64) (hr : r < 128) :
    (BitVec.ofNat 32 t * 128#32 + BitVec.ofNat 32 r).toNat = t * 128 + r := by
  rw [BitVec.toNat_add, BitVec.toNat_mul, BitVec.toNat_ofNat, BitVec.toNat_ofNat, BitVec.toNat_ofNat]
  omega

/-- For j < 8192 the word of j is the number j. -/
theorem colWord_toNat (j : Nat) (hj : j < 8192) : (BitVec.ofNat 32 j).toNat = j := by
  rw [BitVec.toNat_ofNat]; omega

/-- The mask's bit at (r, j) of block t: the signed comparison of the row's word t·128 + r with the column's word j is
    the comparison of the two numbers. -/
theorem mask_bit (t r j : Nat) (ht : t < 64) (hr : r < 128) (hj : j < 8192) :
    IntOp.cmpi .slt (IntOp.addi (Scalar.muli (BitVec.ofNat 32 t) 128#32) (BitVec.ofNat 32 r)) (BitVec.ofNat 32 j)
      = if t * 128 + r < j then 1#1 else 0#1 := by
  have ha := rowWord_toNat t r ht hr
  have hb := colWord_toNat j hj
  have ea := BitVec.toInt_eq_toNat_cond (BitVec.ofNat 32 t * 128#32 + BitVec.ofNat 32 r)
  have eb := BitVec.toInt_eq_toNat_cond (BitVec.ofNat 32 j)
  show BitVec.ofBool ((BitVec.ofNat 32 t * 128#32 + BitVec.ofNat 32 r).slt (BitVec.ofNat 32 j)) = _
  by_cases h : t * 128 + r < j
  · rw [if_pos h]
    have : (BitVec.ofNat 32 t * 128#32 + BitVec.ofNat 32 r).slt (BitVec.ofNat 32 j) = true := by
      rw [BitVec.slt_iff_toInt_lt]; omega
    rw [this]; rfl
  · rw [if_neg h]
    have : (BitVec.ofNat 32 t * 128#32 + BitVec.ofNat 32 r).slt (BitVec.ofNat 32 j) = false := by
      rw [Bool.eq_false_iff, Ne, BitVec.slt_iff_toInt_lt]; omega
    rw [this]; rfl

end Cert.KernelIdeal.AccValue.Pair

end
-- ==== Proof.PairTermAt.lean ====
/-
  The kernel's term for the pair (row r of block t, row j), and that it is the specification's pair term.

  From the mask's bit m and the squared distance d at an index the body forms

      select m (pe (√(select m (max d 0) 1))) 0,      pe s = min 1000 (max (−1.5) (1/(s·(s·s)) − 1/(s·s))),

  every operation entry by entry. At grid point t < 64 the block is rows [128·t, 128·t + 128) of x, so with
  i = 128·t + r: the block's row r is x's row i; the distance at (r, j) is |xᵢ|² + |xⱼ|² − 2·⟨xᵢ, xⱼ⟩; the bit is 1
  exactly when i < j as numbers. When it is 1 both selects take their first branch and the term is
  pe (√(max d 0)); when it is 0 the outer select gives the zero pattern, the extended real 0. Either way it is the
  specification's term of the pair (i, j).
-/
import proofs.«127044_j82729660056292_2_alg».proof.Proof.PairD2
import proofs.«127044_j82729660056292_2_alg».proof.Proof.PairMask
import proofs.«127044_j82729660056292_2_alg».proof.Proof.PairIndex
import proofs.«127044_j82729660056292_2_alg».proof.Proof.Acc
import proofs.«127044_j82729660056292_2_alg».proof.Proof.Spec
import Idealize.ShloMosaic.Lib.ValueIdx
import Idealize.ShloMosaic.PureOps.Ideal.Laws

noncomputable section

open scoped BigOperators

namespace Cert.KernelIdeal.AccValue.Pair

open Idealize.ShloMosaic Idealize.ShloMosaic.ValueIdx Cert.KernelIdeal Cert.KernelIdeal.Gen

/-- The body's values %56 to %74: the 128 × 8192 array of masked, clamped terms, from the mask and the squared
    distances. -/
def termOf (m : IVec S128x8192 1) (w : FVec Ideal S128x8192 .f32) : FVec Ideal S128x8192 .f32 :=
  have v57 : FVec Ideal S128x8192 .f32 := maximumf w (broadcast S128x8192 (Scalar.ofBits (F := Ideal) .f32 0x00000000#32))
  have v59 : FVec Ideal S128x8192 .f32 := select m v57 (broadcast S128x8192 (Scalar.ofBits (F := Ideal) .f32 0x3F800000#32))
  have v60 : FVec Ideal S128x8192 .f32 := sqrt v59
  have v61 : FVec Ideal S128x8192 .f32 := mulf v60 v60
  have v62 : FVec Ideal S128x8192 .f32 := mulf v60 v61
  have v64 : FVec Ideal S128x8192 .f32 := divf (broadcast S128x8192 (Scalar.ofBits (F := Ideal) .f32 0x3F800000#32)) v62
  have v65 : FVec Ideal S128x8192 .f32 := mulf v60 v60
  have v67 : FVec Ideal S128x8192 .f32 := divf (broadcast S128x8192 (Scalar.ofBits (F := Ideal) .f32 0x3F800000#32)) v65
  have v68 : FVec Ideal S128x8192 .f32 := subf v64 v67
  have v70 : FVec Ideal S128x8192 .f32 := maximumf (broadcast S128x8192 (Scalar.ofBits (F := Ideal) .f32 0xBFC00000#32)) v68
  have v72 : FVec Ideal S128x8192 .f32 := minimumf (broadcast S128x8192 (Scalar.ofBits (F := Ideal) .f32 0x447A0000#32)) v70
  select m v72 (broadcast S128x8192 (Scalar.ofBits (F := Ideal) .f32 0x00000000#32))

/-- The masked, clamped term on one bit and one squared distance. -/
def cell (m : BitVec 1) (d : EReal) : EReal :=
  Scalar.select m
    (Cert.Spec.pe (Ideal.sqrt (Scalar.select m (max d (Cert.Spec.lit 0x00000000#32)) (Cert.Spec.lit 0x3F800000#32))))
    (Cert.Spec.lit 0x00000000#32)

/-- The array of terms is that function entry by entry. -/
theorem termOf_apply (m : IVec S128x8192 1) (w : FVec Ideal S128x8192 .f32) (i : S128x8192.Idx) :
    termOf m w i = cell (m i) (w i) := rfl

/-- Row r of block t < 64 is row 128·t + r of the array. -/
theorem rowBlock_apply (x : Vec Ideal S8192x128 .f32) (t : Nat) (ht : t < 64) (r : Fin 128) (l : Fin 128) :
    Cert.KernelIdeal.Acc.rowBlock x t (ix2 r l) = x (ix2 (⟨t * 128 + r.val, by omega⟩ : Fin 8192) l) := by
  have hm : (t * 128 + r.val) % 8192 = t * 128 + r.val := Nat.mod_eq_of_lt (by omega)
  show x (ix2 (⟨(t * 128 + r.val) % 8192, _⟩ : Fin 8192) (⟨l.val, _⟩ : Fin 128)) = _
  refine congrArg x ?_
  funext d
  match d with
  | ⟨0, _⟩ => exact Fin.ext hm
  | ⟨1, _⟩ => rfl

/-- The body's term at (r, j) of block t is the specification's term of the pair (128·t + r, j). -/
theorem cell_eq (x : Vec Ideal S8192x128 .f32) (t : Nat) (ht : t < 64) (r : Fin 128) (j : Fin 8192) :
    termOf (maskOf (BitVec.ofNat 32 t))
        (d2Of (Cert.KernelIdeal.Acc.rowBlock x t) x (k0_pay6 (F := Ideal) (Cert.KernelIdeal.Acc.rowBlock x t)) (k0_pay7 (F := Ideal) x)) (ix2 r j)
      = Cert.Spec.pairTerm x (⟨t * 128 + r.val, by omega⟩ : Fin 8192) j := by
  have hm : maskOf (BitVec.ofNat 32 t) (ix2 r j) = if t * 128 + r.val < j.val then 1#1 else 0#1 :=
    (maskOf_apply _ r j).trans (mask_bit t r.val j.val ht r.isLt j.isLt)
  have hd : d2Of (Cert.KernelIdeal.Acc.rowBlock x t) x (k0_pay6 (F := Ideal) (Cert.KernelIdeal.Acc.rowBlock x t)) (k0_pay7 (F := Ideal) x) (ix2 r j)
      = Cert.Spec.d2 x (⟨t * 128 + r.val, by omega⟩ : Fin 8192) j := by
    refine (d2Of_apply _ _ _ _ r j).trans ?_
    rw [pay6_apply, pay7_apply]
    unfold Cert.Spec.d2 Cert.Spec.sq Cert.Spec.cross
    simp only [rowBlock_apply x t ht]
  rw [termOf_apply, hm, hd]
  unfold Cert.Spec.pairTerm
  by_cases h : t * 128 + r.val < j.val
  · rw [if_pos h, if_pos (show (⟨t * 128 + r.val, by omega⟩ : Fin 8192).val < j.val from h)]
    unfold cell
    rw [select_one, select_one]
  · rw [if_neg h, if_neg (show ¬ (⟨t * 128 + r.val, by omega⟩ : Fin 8192).val < j.val from h)]
    unfold cell
    rw [select_zero]
    exact Ideal.ofBits_zero_f32

end Cert.KernelIdeal.AccValue.Pair

end
-- ==== Proof.PairPoint.lean ====
/-
  What one grid point adds to the second accumulator.

  The body sums its 128 × 8192 array of terms along each row, views the 128 row sums as a 1 × 128 × 1 array, sums that
  over its two non-trivial axes into one cell, and adds the cell to the accumulator it loaded. The total over a
  1 × 128 × 1 array is the sum over its middle coordinate (the indices are (0, r, 0), r < 128, each once), so the cell
  is ∑ᵣ ∑ⱼ term (r, j). With the terms identified with the specification's pair terms, grid point t < 64 turns an
  accumulator holding a into one holding

      a + ∑ᵣ ∑ⱼ pairTerm x (128·t + r) j.

  The store's own cast, from 1 × 1 to 1 × 1, changes nothing.
-/
import proofs.«127044_j82729660056292_2_alg».proof.Proof.PairTermAt
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.AccValue.Pair

open Idealize.ShloMosaic Idealize.ShloMosaic.ValueIdx Cert.KernelIdeal Cert.KernelIdeal.Gen

/-- The body's values %75 to %83: the array of terms summed into one cell and added to the loaded accumulator. -/
def tailOf (w : FVec Ideal S128x8192 .f32) (v81 : FVec Ideal S1x1 .f32) : FVec Ideal S1x1 .f32 :=
  addf v81 (broadcast S1x1 (extractAt ![0, 0, 0]
    (shapeCast S1x1x1
      (multiReduction (F := Ideal) .add [1, 2] S1
        (shapeCast S1x128x1
          (shapeCast S128x1 (multiReduction (F := Ideal) .add [1] S128 w 0x00000000#32 reduces_S128x8192_S128 (.inl rfl) rfl) shapeCasts_S128_S128x1)
          shapeCasts_S128x1_S1x128x1)
        0x00000000#32 reduces_S1x128x1_S1 (.inl rfl) rfl)
      shapeCasts_S1_S1x1x1)
    inpos_S1x1x1_p0_0_0))

/-- The body's arithmetic for the second accumulator is the four stages in turn. -/
theorem pay8_split (arg0 : BitVec 32) (blk : FVec Ideal S128x128 .f32) (x : FVec Ideal S8192x128 .f32)
    (sqb : FVec Ideal S128x1 .f32) (sqx : FVec Ideal S8192 .f32) (v81 : FVec Ideal S1x1 .f32) :
    k0_pay8 (F := Ideal) arg0 blk x sqb sqx v81 = tailOf (termOf (maskOf arg0) (d2Of blk x sqb sqx)) v81 := rfl

/-- The indices of a 1 × 128 × 1 array are the (0, r, 0), r < 128. -/
def colEquiv : Fin 128 ≃ S1x128x1.Idx where
  toFun r := ix3 (0 : Fin 1) r (0 : Fin 1)
  invFun i := i 1
  left_inv _ := rfl
  right_inv i := by
    funext d
    match d with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)

/-- The two sums leave the accumulator plus the double sum of the terms. -/
theorem tailOf_eq (w : FVec Ideal S128x8192 .f32) (v81 : FVec Ideal S1x1 .f32) :
    tailOf w v81 = fun i => v81 i + ∑ r : Fin 128, ∑ j : Fin 8192, w (ix2 r j) := by
  funext i
  refine congrArg (v81 i + ·) ?_
  show multiReduction (F := Ideal) .add [1, 2] S1 _ 0x00000000#32 reduces_S1x128x1_S1 (.inl rfl) rfl _ = _
  refine (Ideal.multiReduction_add_total _ _ reduces_S1x128x1_S1 (by decide) (.inl rfl) rfl _).trans ?_
  rw [← Equiv.sum_comp colEquiv]
  refine Finset.sum_congr rfl fun r _ => ?_
  exact (shapeCast_ab_1ab_apply _ _ (0 : Fin 1) r (0 : Fin 1)).trans
    ((shapeCast_a_a1_apply _ _ r (0 : Fin 1)).trans (rowSum_apply w _ _ _ r))

/-- Grid point t < 64 adds the pair terms of the pairs whose first row lies in block t. -/
theorem point_eq (x : Vec Ideal S8192x128 .f32) (t : Nat) (ht : t < 64) (a : EReal) :
    k0_pay1 (F := Ideal) (k0_pay8 (F := Ideal) (BitVec.ofNat 32 t) (Cert.KernelIdeal.Acc.rowBlock x t) x
        (k0_pay6 (F := Ideal) (Cert.KernelIdeal.Acc.rowBlock x t)) (k0_pay7 (F := Ideal) x) (fun _ => a))
      = fun _ => a + ∑ r : Fin 128, ∑ j : Fin 8192, Cert.Spec.pairTerm x (⟨t * 128 + r.val, by omega⟩ : Fin 8192) j := by
  unfold k0_pay1
  rw [shapeCast_self, pay8_split, tailOf_eq]
  funext _
  exact congrArg (a + ·) (Finset.sum_congr rfl fun r _ => Finset.sum_congr rfl fun j _ => cell_eq x t ht r j)

end Cert.KernelIdeal.AccValue.Pair

end
-- ==== Proof.AccPairs.lean ====
/-
  The second accumulator after grid point t holds the pair terms of all pairs whose first row is below 128·(t + 1).

  By induction on t. Point 0 starts from the zero cell and adds block 0's terms; the running sum over no rows is 0.
  Point t + 1 starts from what point t left, by the induction hypothesis the running sum up to row 128·(t + 1), and
  adds block t + 1's terms; the running sum up to the end of a block is the running sum up to its start plus the
  block's terms.
-/
import proofs.«127044_j82729660056292_2_alg».proof.Proof.PairPoint
import proofs.«127044_j82729660056292_2_alg».proof.Proof.AccSums
import proofs.«127044_j82729660056292_2_alg».proof.Proof.Acc
import proofs.«127044_j82729660056292_2_alg».proof.Proof.Spec
import Idealize.ShloMosaic.Lib.Pipeline.Value
import Idealize.ShloMosaic.PureOps.Ideal.Laws

noncomputable section

open scoped BigOperators

namespace Cert.KernelIdeal.AccValue

open Idealize.ShloMosaic Idealize.ShloMosaic.ValueIdx Cert.KernelIdeal Cert.KernelIdeal.Gen

/-- The cell the first grid point stores before anything is added is the extended real 0. -/
theorem Pair.pay4_eq : k0_pay4 (F := Ideal) = fun _ => (0 : EReal) := by
  show shapeCast S1x1 (broadcast S1x1 (Scalar.ofBits (F := Ideal) .f32 0x00000000#32)) shapeCasts_S1x1_S1x1 = _
  rw [shapeCast_self]
  funext _
  exact Ideal.ofBits_zero_f32

/-- After grid point t < 64 the second accumulator is the pairs' running sum up to row 128·(t + 1). -/
theorem acc1_eq (x : Vec Ideal S8192x128 .f32) (t : Nat) (ht : t < 64) :
    Acc.acc1 (F := Ideal) x t = fun _ => Cert.Spec.pairPartial x ((t + 1) * 128) := by
  induction t with
  | zero =>
    show k0_pay1 (F := Ideal) (k0_pay8 (F := Ideal) (BitVec.ofNat 32 0) (Acc.rowBlock x 0) x
        (k0_pay6 (F := Ideal) (Acc.rowBlock x 0)) (k0_pay7 (F := Ideal) x) (k0_pay4 (F := Ideal))) = _
    rw [Pair.pay4_eq, Pair.point_eq x 0 ht 0, pairPartial_step x 0 ht, pairPartial_zero]
  | succ t ih =>
    show k0_pay1 (F := Ideal) (k0_pay8 (F := Ideal) (BitVec.ofNat 32 (t + 1)) (Acc.rowBlock x (t + 1)) x
        (k0_pay6 (F := Ideal) (Acc.rowBlock x (t + 1))) (k0_pay7 (F := Ideal) x) (Acc.acc1 (F := Ideal) x t)) = _
    rw [ih (by omega), Pair.point_eq x (t + 1) ht _, pairPartial_step x (t + 1) ht]

end Cert.KernelIdeal.AccValue

end
-- ==== Proof.Value.lean ====
/-
  The idealized kernel's result, read off its run. The output window's one block is written back at the last point
  only, so the 1 × 1 result array ends at what that point stored: the first accumulator over 8192 plus the second
  over the number of pairs, the accumulators being the running sums over all 64 row blocks. The host line reshapes
  that cell into the scalar result. With the accumulators' closed forms this is the loss of the argument array.
-/
import proofs.«127044_j82729660056292_2_alg».proof.Proof.Run
import proofs.«127044_j82729660056292_2_alg».proof.Proof.Obligation
import proofs.«127044_j82729660056292_2_alg».proof.Proof.AccTotal
import proofs.«127044_j82729660056292_2_alg».proof.Proof.AccPairs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx

variable (m : (ℓ : Loc nD τ sig) → Buf (Elt Ideal) ℓ) (ρ : Dev nD → PrngReg)

/-- The second window's one block is the argument array itself. -/
theorem xArr_eq (c : Dev nD) : xArr m c = m ((c.tc : Thread nD τ).loc main_arg0) := by
  funext j
  show V m c main_arg0 (((cfg0.win 1).blk t0).view.emb j) = m ((c.tc : Thread nD τ).loc main_arg0) j
  rw [V_main_arg0]
  have h : ((cfg0.win 1).blk t0).view.emb j = j := by
    obtain ⟨z0, z1⟩ := idx1 t0
    funext a; apply Fin.ext
    match a with
    | ⟨0, _⟩ => show win0_1.index t0 (0 : Fin 2) * 8192 + 1 * (j 0).val = (j 0).val; omega
    | ⟨1, _⟩ => show win0_1.index t0 (1 : Fin 2) * 128 + 1 * (j 1).val = (j 1).val; omega
  rw [h]

/-- The output window's block index is (0, 0) at every point. -/
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- The last grid point. -/
abbrev tL : Fin cfg0.N := ⟨63, by decide⟩

/-- The result array after the region: the one cell the last point wrote back. -/
theorem arrAt2 (c : Dev nD) : (dats m 0 c).arrAt 2 cfg0.N = Acc.out (xArr m c) := by
  refine (dats m 0 c).arrAt_eq_of_cover 2 (Acc.out (xArr m c)) (fun t _ => ?_) (fun i => ⟨tL, (flush0_2 tL).mpr rfl, ?_⟩)
  · show (cfg0.win 2).cut (grid0.coords t) ((dats m 0 c).after 2 t) = _
    rw [after2]
    funext j
    show Acc.out (xArr m c) j = Acc.out (xArr m c) (((cfg0.win 2).blk t).view.emb j)
    have h : ((cfg0.win 2).blk t).view.emb j = j := by
      obtain ⟨z0, z1⟩ := idx2 t
      funext a; apply Fin.ext
      match a with
      | ⟨0, _⟩ => show win0_2.index t (0 : Fin 2) * 1 + 1 * (j 0).val = (j 0).val; omega
      | ⟨1, _⟩ => show win0_2.index t (1 : Fin 2) * 1 + 1 * (j 1).val = (j 1).val; omega
    rw [h]
  · show i ∈ ((View.whole main_call0_v0).slice (win0_2.rect tL)).set
    rw [View.set_slice_whole, Rect.mem_set_unit]
    obtain ⟨z0, z1⟩ := idx2 tL
    intro a
    match a with
    | ⟨0, _⟩ =>
      show win0_2.index tL (0 : Fin 2) * 1 ≤ (i 0).val ∧ (i 0).val < win0_2.index tL (0 : Fin 2) * 1 + 1
      have h0 : (i 0).val < 1 := (i 0).isLt
      omega
    | ⟨1, _⟩ =>
      show win0_2.index tL (1 : Fin 2) * 1 ≤ (i 1).val ∧ (i 1).val < win0_2.index tL (1 : Fin 2) * 1 + 1
      have h1 : (i 1).val < 1 := (i 1).isLt
      omega

/-- The last point's store is the loss of the argument array. -/
theorem out_total (x : Vec Ideal S8192x128 .f32) : Acc.out (F := Ideal) x = fun _ => Cert.Spec.total x :=
  Cert.KernelIdeal.AccValue.out_eq_of x (Cert.KernelIdeal.AccValue.acc1_eq x 63 (by decide))

/-- The result buffer after the host line: the one cell of the result array, as a scalar. -/
theorem Vf_res (c : Dev nD) :
    Vf m c (Proc.devRef .tc main_v0) = fun _ => Cert.Spec.total (m ((c.tc : Thread nD τ).loc main_arg0)) := by
  unfold Vf
  show StableHlo.after hostOps1 (Wx m c) (Proc.devRef .tc main_v0) = _
  after_results
  rw [Wx_out, arrAt2, out_total, xArr_eq]
  rfl

/-- THE KERNEL'S RUN AT THE IDEAL INSTANCE: it ends with the result at the loss of the argument array, the argument
    array unchanged. -/
theorem kernel_run : θ_run (defs (F := Ideal)) (onTc (τ := τ) (main (F := Ideal))) ⟨m, fun _ => 0, ρ⟩ (fun r => ∀ c : Dev nD,
      r.2.mem ((c.tc : Thread nD τ).loc main_v0) = (fun _ => Cert.Spec.total (m ((c.tc : Thread nD τ).loc main_arg0)))
      ∧ r.2.mem ((c.tc : Thread nD τ).loc main_arg0) = m ((c.tc : Thread nD τ).loc main_arg0)) :=
  (θ_run (defs (F := Ideal)) _ _).mono (fun _ h c => ⟨(h c).2.trans (Vf_res m c), (h c).1⟩)
    (run_main_of m ρ (body_obligation m))

end Cert.KernelIdeal.Hand

end
-- ==== Proof.RefRows.lean ====
/-
  The reference's first summand, read at the exact instance: the mean over the rows of the clamped transform of each
  row's shifted norm.

  Stage by stage at a row r: the host's sum over the 128 lanes, started from the word of zero, of (x r l + ε)² is the
  plain sum (0 + a = a), and its square root is the specification's norm. The transform 1/(d·d·d) − 1/(d·d) is printed
  with the cube bracketed to the left, (d·d)·d, where the specification brackets it to the right: one use of the
  commutativity of the product. The clamp is a maximum with the lower bound followed by a minimum with the upper bound,
  in the specification's order. The mean is the host's sum over the one axis of a rank-1 array, again started from
  zero — a sum over the rank-1 index set, which is the sum over its one coordinate — divided by the word of 8192.
-/
import proofs.«127044_j82729660056292_2_alg».proof.Proof.Spec
import proofs.«127044_j82729660056292_2_alg».proof.Proof.Gen.ReferenceIdeal.Read
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-- The argument array's contents at the exact instance. -/
abbrev ArgArr : Type := (⟨S8192x128, .f32⟩ : BufTy).Contents (Elt Ideal)

/-- A sum over a rank-1 index set is the sum over its one coordinate. -/
theorem sum_idx1 {M : Type*} [AddCommMonoid M] {n : Nat} (f : (⟨1, ![n]⟩ : Shape).Idx → M) :
    ∑ i, f i = ∑ a : Fin n, f (ix1 a) :=
  let e : (⟨1, ![n]⟩ : Shape).Idx ≃ Fin n :=
    { toFun := fun i => i 0, invFun := fun a => ix1 a, left_inv := fun i => (eq_ix1 i).symm, right_inv := fun _ => rfl }
  (Equiv.sum_comp e.symm f).symm

/-- The clamped transform as the reference prints it — the cube bracketed to the left — is the specification's. -/
theorem pe_left (d : EReal) :
    min (Spec.lit 0x447A0000#32) (max (Spec.lit 0xBFC00000#32)
      (Ideal.div (Spec.lit 0x3F800000#32) (d * d * d) - Ideal.div (Spec.lit 0x3F800000#32) (d * d))) = Spec.pe d := by
  unfold Spec.pe
  rw [mul_comm (d * d) d]

/-- Row r's sum of squares of x + ε. -/
theorem shiftedSq_at (x : ArgArr) (r : Fin 8192) :
    val_main_v3 (F := Ideal) x (ix1 r)
      = ∑ l : Fin 128, (x (ix2 r l) + Spec.lit 0x358637BD#32) * (x (ix2 r l) + Spec.lit 0x358637BD#32) := by
  rw [val_main_v3_apply, val_main_cst_0_apply, Ideal.ofBits_def, Ideal.ofBits_zero_f32, zero_add]
  refine Finset.sum_congr rfl fun l _ => ?_
  have e : idx_main_v3 (ix1 r) l = ix2 r l := funext fun a => by match a with | ⟨0, _⟩ => rfl | ⟨1, _⟩ => rfl
  rw [e, val_main_v2_apply, val_main_v1_apply, val_main_v0_apply, val_main_cst_apply, Ideal.mulf_def, Ideal.addf_def,
    Ideal.ofBits_def]

/-- Row r's shifted norm. -/
theorem norm_at (x : ArgArr) (r : Fin 8192) : val_main_v4 (F := Ideal) x (ix1 r) = Spec.norm0 x r := by
  rw [val_main_v4_apply, shiftedSq_at, Ideal.hostUnary_sqrt_def]
  rfl

/-- The transform and the clamp, at any row: the specification's transform of the norm stage. -/
theorem rowClamp_at (x : ArgArr) (q : S8192.Idx) :
    val_main_v13 (F := Ideal) x q = Spec.pe (val_main_v4 (F := Ideal) x q) := by
  rw [val_main_v13_apply, val_main_call0_v4_apply, val_main_call0_v3_apply, val_main_cst_4_apply,
    val_main_call0_v2_apply, val_main_call0_v1_apply, val_main_call0_v0_apply, val_main_cst_3_apply,
    val_main_v12_apply, val_main_v8_apply, val_main_v7_apply, val_main_cst_1_apply, val_main_v6_apply,
    val_main_v5_apply, val_main_v11_apply, val_main_v10_apply, val_main_cst_2_apply, val_main_v9_apply]
  generalize val_main_v4 (F := Ideal) x q = d
  simp only [Ideal.minimumf_def, Ideal.maximumf_def, Ideal.subf_def, Ideal.hostDivf_def, Ideal.mulf_def, Ideal.ofBits_def]
  exact pe_left d

/-- The first summand: the rows' total over the word of 8192. -/
theorem rowMean_at (x : ArgArr) (i : S_.Idx) :
    val_main_v15 (F := Ideal) x i = Ideal.div (Spec.rowTotal x) (Spec.lit 0x46000000#32) := by
  rw [val_main_v15_apply, val_main_v14_apply, val_main_cst_5_apply, val_main_cst_6_apply, Ideal.hostDivf_def,
    Ideal.ofBits_def, Ideal.ofBits_zero_f32, zero_add, Ideal.ofBits_def, sum_idx1]
  unfold Spec.rowTotal
  refine congrArg (Ideal.div · _) (Finset.sum_congr rfl fun r _ => ?_)
  rw [rowClamp_at, norm_at]

end Cert.ReferenceIdeal.RefValue

end
-- ==== Proof.RefMask.lean ====
/-
  The strict-upper-triangle mask, as arithmetic on 32-bit words.

  The reference builds its mask from two index arrays: entry (a, b) holds the words of a and of b, the
  first has the word 0 added to it, the two are compared "first ≥ second" as signed numbers, and the outcome selects
  the bit 0 where the comparison holds and the bit 1 where it fails. Both coordinates are below 8192, far below
  2³¹, so the signed value of each word is the coordinate itself, and the selected bit is 1 exactly when a < b.
-/
import Idealize.ShloMosaic.Lib.ValueIdx

noncomputable section

namespace Cert.ReferenceIdeal.RefValue

open Idealize.ShloMosaic

/-- The signed value of the 32-bit word of a number below 8192 is that number. -/
theorem toInt_word (a : Nat) (ha : a < 8192) : (BitVec.ofNat 32 a).toInt = (a : Int) := by
  have h32 : (2 : Nat) ^ 32 = 4294967296 := by norm_num
  have hn : (BitVec.ofNat 32 a).toNat = a := by
    rw [BitVec.toNat_ofNat, h32]
    exact Nat.mod_eq_of_lt (by omega)
  rw [BitVec.toInt_eq_toNat_of_lt (by rw [hn, h32]; omega), hn]

/-- The mask's bit at coordinates (a, b), both below 8192: 1 exactly when a < b. -/
theorem mask_word (a b : Nat) (ha : a < 8192) (hb : b < 8192) :
    Scalar.select (IntOp.cmpi .sge (IntOp.addi (BitVec.ofNat 32 a) 0#32) (BitVec.ofNat 32 b)) (0#1) (1#1 : BitVec 1)
      = if a < b then 1#1 else 0#1 := by
  unfold IntOp.cmpi IntOp.addi
  rw [BitVec.add_zero]
  show Scalar.select (BitVec.ofBool ((BitVec.ofNat 32 b).sle (BitVec.ofNat 32 a))) 0#1 1#1 = _
  rw [BitVec.sle_eq_decide, toInt_word a ha, toInt_word b hb]
  by_cases h : a < b
  · rw [if_pos h, decide_eq_false (by omega)]; rfl
  · rw [if_neg h, decide_eq_true (by omega)]; rfl

end Cert.ReferenceIdeal.RefValue

end
-- ==== Proof.RefPairs.lean ====
/-
  The reference's second summand, read at the exact instance: the sum over all pairs of rows of the pair term, over
  the number of pairs.

  At a pair (i, j): the two broadcasts of the rows' squared norms (a column and a row, stretched to the square array)
  read the squared norm of row i and of row j; the product of x with its transpose reads, through the transpose, the sum
  over the 128 lanes of x i l · x j l; so the expanded squared distance is |x i|² + |x j|² − 2·⟨x i, x j⟩. The mask's bit
  is 1 exactly when i < j (word arithmetic, both coordinates below 8192). Where the bit is 1 the selected value is the
  maximum of the squared distance and zero, whose square root goes through the clamped transform; where it is 0 the
  last select returns the word of zero, whatever the transform made of the placeholder. That is the specification's pair
  term. The host's sum over both axes, started from zero, is the sum over the rank-2 index set, i.e. the double sum over
  the two coordinates; it is divided by the word of the number of pairs.
-/
import proofs.«127044_j82729660056292_2_alg».proof.Proof.RefMask
import proofs.«127044_j82729660056292_2_alg».proof.Proof.RefRows

noncomputable section

open scoped BigOperators

namespace Cert.ReferenceIdeal.RefValue

open Cert.ReferenceIdeal Cert.ReferenceIdeal.Gen Cert.ReferenceIdeal.Read Idealize.ShloMosaic Idealize.ShloMosaic.ValueIdx

/-- Row r's squared norm. -/
theorem sq_at (x : ArgArr) (r : Fin 8192) : val_main_v17 (F := Ideal) x (ix1 r) = Spec.sq x r := by
  rw [val_main_v17_apply, val_main_cst_7_apply, Ideal.ofBits_def, Ideal.ofBits_zero_f32, zero_add]
  unfold Spec.sq
  refine Finset.sum_congr rfl fun l _ => ?_
  have e : idx_main_v17 (ix1 r) l = ix2 r l := funext fun a => by match a with | ⟨0, _⟩ => rfl | ⟨1, _⟩ => rfl
  rw [e, val_main_v16_apply, Ideal.mulf_def]

/-- The two stretched squared norms at (i, j), added. -/
theorem sqSum_at (x : ArgArr) (i j : Fin 8192) :
    val_main_v22 (F := Ideal) x (ix2 i j) = Spec.sq x i + Spec.sq x j := by
  have e0 : idx_main_v18 (idx_main_v20 (ix2 i j)) = ix1 i := funext fun a => by match a with | ⟨0, _⟩ => rfl
  have e1 : idx_main_v19 (idx_main_v21 (ix2 i j)) = ix1 j := funext fun a => by match a with | ⟨0, _⟩ => rfl
  rw [val_main_v22_apply, val_main_v20_apply, val_main_v18_apply, val_main_v21_apply, val_main_v19_apply, e0, e1,
    sq_at, sq_at, Ideal.addf_def]

/-- The product of x with its transpose at (i, j): the inner product of rows i and j. -/
theorem cross_at (x : ArgArr) (i j : Fin 8192) : val_main_v24 (F := Ideal) x (ix2 i j) = Spec.cross x i j := by
  rw [val_main_v24_apply]
  unfold Spec.cross
  refine Finset.sum_congr rfl fun l _ => ?_
  have el : lidx_main_v24 (ix2 i j) l = ix2 i l := funext fun a => by match a with | ⟨0, _⟩ => rfl | ⟨1, _⟩ => rfl
  have er : idx_main_v23 (ridx_main_v24 (ix2 i j) l) = ix2 j l :=
    funext fun a => by match a with | ⟨0, _⟩ => rfl | ⟨1, _⟩ => rfl
  rw [val_main_v23_apply, el, er]

/-- The expanded squared distance of rows i and j. -/
theorem d2_at (x : ArgArr) (i j : Fin 8192) : val_main_v27 (F := Ideal) x (ix2 i j) = Spec.d2 x i j := by
  rw [val_main_v27_apply, val_main_v26_apply, val_main_v25_apply, val_main_cst_8_apply, sqSum_at, cross_at,
    Ideal.subf_def, Ideal.mulf_def, Ideal.ofBits_def]
  rfl

/-- The mask's bit at (i, j): 1 exactly on the strict upper triangle. -/
theorem mask_at {F : FTy → Type} [FloatOps F] (i j : Fin 8192) :
    val_main_v29 (F := F) (ix2 i j) = if i.val < j.val then 1#1 else 0#1 := by
  rw [val_main_v29_apply, val_main_call1_v4_apply, val_main_call1_v2_apply, val_main_call1_v0_apply,
    val_main_call1_v1_apply, val_main_call1_c_apply, val_main_call1_v3_apply, val_main_call1_v5_apply,
    val_main_call1_c_0_apply, val_main_v28_apply, val_main_c_apply]
  exact mask_word i.val j.val i.isLt j.isLt

/-- The transform and the clamp, at any pair: the specification's transform of the distance stage. -/
theorem pairClamp_at (x : ArgArr) (p : S8192x8192.Idx) :
    val_main_v42 (F := Ideal) x p = Spec.pe (val_main_v33 (F := Ideal) x p) := by
  rw [val_main_v42_apply, val_main_call3_v4_apply, val_main_call3_v3_apply, val_main_cst_14_apply,
    val_main_call3_v2_apply, val_main_call3_v1_apply, val_main_call3_v0_apply, val_main_cst_13_apply,
    val_main_v41_apply, val_main_v37_apply, val_main_v36_apply, val_main_cst_11_apply, val_main_v35_apply,
    val_main_v34_apply, val_main_v40_apply, val_main_v39_apply, val_main_cst_12_apply, val_main_v38_apply]
  generalize val_main_v33 (F := Ideal) x p = d
  simp only [Ideal.minimumf_def, Ideal.maximumf_def, Ideal.subf_def, Ideal.hostDivf_def, Ideal.mulf_def, Ideal.ofBits_def]
  exact pe_left d

/-- The masked array at (i, j) is the specification's pair term. -/
theorem pairTerm_at (x : ArgArr) (i j : Fin 8192) :
    val_main_v43 (F := Ideal) x (ix2 i j) = Spec.pairTerm x i j := by
  rw [val_main_v43_apply, mask_at]
  unfold Spec.pairTerm
  by_cases h : i.val < j.val
  · rw [if_pos h, if_pos h, select_one, pairClamp_at, val_main_v33_apply, val_main_v32_apply, mask_at, if_pos h,
      select_one, val_main_v31_apply, val_main_v30_apply, val_main_cst_9_apply, d2_at, Ideal.hostUnary_sqrt_def,
      Ideal.maximumf_def, Ideal.ofBits_def]
  · rw [if_neg h, if_neg h, select_zero, val_main_call4_v1_apply, val_main_call4_v0_apply, val_main_cst_15_apply,
      Ideal.ofBits_def, Ideal.ofBits_zero_f32]

/-- The second summand: the pairs' total over the word of the number of pairs. -/
theorem pairMean_at (x : ArgArr) (i : S_.Idx) :
    val_main_v45 (F := Ideal) x i = Ideal.div (Spec.pairTotal x) (Spec.lit 0x4BFFF800#32) := by
  rw [val_main_v45_apply, val_main_v44_apply, val_main_cst_16_apply, val_main_cst_17_apply, Ideal.hostDivf_def,
    Ideal.ofBits_def, Ideal.ofBits_zero_f32, zero_add, Ideal.ofBits_def, sum_idx2]
  unfold Spec.pairTotal
  exact congrArg (Ideal.div · _)
    (Finset.sum_congr rfl fun a _ => Finset.sum_congr rfl fun b _ => pairTerm_at x a b)

end Cert.ReferenceIdeal.RefValue

end
-- ==== Proof.RefTotal.lean ====
/-
  The reference's result is the specification's total of its argument.

  The last operation adds the two quotients: the rows' total over the word of 8192, and the pairs' total over the
  word of the number of pairs. That is the specification's total, at the one index of a rank-0 array. The reference's
  run (every fair execution terminates with the result buffer at the operations' composed term of the argument and
  the argument unchanged) then ends with the result buffer at that total; dropping the result leaves the frame
  statement.
-/
import proofs.«127044_j82729660056292_2_alg».proof.Defs
import proofs.«127044_j82729660056292_2_alg».proof.Proof.Gen.Pre_finite_inputs
import proofs.«127044_j82729660056292_2_alg».proof.Proof.Gen.ReferenceIdeal.Run
import proofs.«127044_j82729660056292_2_alg».proof.Proof.Gen.ReferenceIdeal.Read
import proofs.«127044_j82729660056292_2_alg».proof.Proof.RefRows
import proofs.«127044_j82729660056292_2_alg».proof.Proof.RefPairs

noncomputable section

open Idealize.ShloMosaic Idealize.ShloMosaic.TcCoe Idealize.SL.Sem

namespace Cert.ReferenceIdeal.RefValue

open Cert.ReferenceIdeal Cert.ReferenceIdeal.Gen Cert.ReferenceIdeal.Read

/-- The last stage, as a function of the argument array, is constantly the specification's total. -/
theorem val_eq (x : ArgArr) : val_main_v46 (F := Ideal) x = (fun _ => Cert.Spec.total x) := by
  funext i
  rw [val_main_v46_apply, rowMean_at, pairMean_at, Ideal.addf_def]
  rfl

/-- The run's result term is constantly the specification's total of the argument buffer's contents. -/
theorem result_eq (m : (ℓ : Loc nD τ sig) → Buf (Elt Ideal) ℓ) (c : Dev nD) :
    Cert.ReferenceIdeal.Value.res_main_v46 (F := Ideal) m c
      = (fun _ => Cert.Spec.total (m ((c.tc : Thread nD τ).loc main_arg0))) :=
  (val_main_v46_eq m c).trans (val_eq _)

/-- The reference's run, with its result named by the specification. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩
      (fun r => ∀ c : Dev Cert.ReferenceIdeal.nD,
        r.2.mem ((c.tc : Thread _ _).loc Cert.ReferenceIdeal.main_v46)
            = (fun _ => Cert.Spec.total (m' ((c.tc : Thread _ _).loc Cert.ReferenceIdeal.main_arg0)))
        ∧ r.2.mem ((c.tc : Thread _ _).loc Cert.ReferenceIdeal.main_arg0)
            = m' ((c.tc : Thread _ _).loc Cert.ReferenceIdeal.main_arg0)) :=
  (θ_run Cert.ReferenceIdeal.defs _ _).mono (fun _ h c => ⟨(h c).1.trans (result_eq m' c), (h c).2⟩)
    (Cert.ReferenceIdeal.Value.run (F := Ideal) m' ρ')

/-- The reference runs and leaves its argument unchanged: its run with the result dropped. -/
theorem ref_frame : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.lean ====
/-
  The kernel computes, over an 8192 × 128 array x, the mean over the rows of a clamped power-law transform of the
  norm of x + ε, plus the sum of the same transform of the pairwise row distances over the strict upper triangle
  divided by the number of pairs. It does so in 64 grid points: point t reads rows [128·t, 128·t + 128) and the whole
  array, adds the block's 128 row terms to one accumulator and its 128 × 8192 pair terms to another, and the last
  point stores the first over 8192 plus the second over 33550336. The reference computes the same sums in one piece.

  Over the extended reals the two agree: a sum regrouped into 64 blocks of 128 rows is the same sum (addition is
  commutative and associative, 0 + a = a), the matrix product into a zero accumulator is the host's product, the
  cube d·(d·d) is (d·d)·d, and the integer mask row < column is the strict upper triangle. No finiteness of x is used.

  The three frames: each program runs to the end, faults nowhere and leaves x unchanged. Both kernels read x through
  two windows at once, so the array's ownership is split in halves between them for the length of the run.
-/
import proofs.«127044_j82729660056292_2_alg».proof.Defs
import proofs.«127044_j82729660056292_2_alg».proof.Proof.Gen.Kernel
import proofs.«127044_j82729660056292_2_alg».proof.Proof.Gen.KernelIdeal
import proofs.«127044_j82729660056292_2_alg».proof.Proof.Gen.ReferenceIdeal
import proofs.«127044_j82729660056292_2_alg».proof.Proof.Gen.Pre_finite_inputs
import proofs.«127044_j82729660056292_2_alg».proof.Proof.BitsRun
import proofs.«127044_j82729660056292_2_alg».proof.Proof.BitsObligation
import proofs.«127044_j82729660056292_2_alg».proof.Proof.Value
import proofs.«127044_j82729660056292_2_alg».proof.Proof.RefTotal
import Idealize.ShloMosaic.Adequacy
import Idealize.ShloMosaic.Init

noncomputable section

namespace Cert.Proof

open Idealize.ShloMosaic Idealize.SL.Sem

/-- The word-level kernel runs and leaves its argument unchanged. -/
theorem frame_k : Cert.frame_Kernel := fun m ρ _ =>
  (θ_run (Cert.Kernel.defs (F := Bits)) _ _).mono (fun _ h c => (h c).1)
    (Cert.Kernel.Hand.run_main_of m ρ (Cert.Kernel.Hand.body_obligation m))

/-- The idealized kernel runs and leaves its argument unchanged. -/
theorem frame_ki : Cert.frame_KernelIdeal := fun m ρ _ =>
  (θ_run (Cert.KernelIdeal.defs (F := Ideal)) _ _).mono (fun _ h c => (h c).1)
    (Cert.KernelIdeal.Hand.run_main_of m ρ (Cert.KernelIdeal.Hand.body_obligation m))

/-- Both idealized programs end with the loss of the (agreeing) argument arrays. -/
theorem algebraic : Cert.algebraic_KernelIdeal_ReferenceIdeal := by
  intro m ρ m' ρ' _ hagree
  refine ⟨fun c => fun _ => Cert.Spec.total (m ((c.tc : Thread Cert.KernelIdeal.nD Cert.KernelIdeal.τ).loc Cert.KernelIdeal.main_arg0)),
    Cert.KernelIdeal.Hand.kernel_run m ρ, ?_⟩
  refine (θ_run (Cert.ReferenceIdeal.defs (F := Ideal)) _ _).mono (fun _ h c => ⟨(h c).1.trans ?_, (h c).2⟩)
    (Cert.ReferenceIdeal.RefValue.ref_run m' ρ')
  rw [hagree c]
  rfl

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefValue.ref_frame, trivial, algebraic⟩

end Cert.Proof

end
